-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048 : Shape := ⟨2, ![4, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S256x1024 : Shape := ⟨2, ![256, 1024]⟩
abbrev S64x1024 : Shape := ⟨2, ![64, 1024]⟩
abbrev S16x1024 : Shape := ⟨2, ![16, 1024]⟩
abbrev S_ : Shape := ⟨0, ![]⟩

class Facts : Prop where
  bcast_S_S20000x1024 : S_.BroadcastsInDim S20000x1024 (![] : Fin 0 → Fin S20000x1024.rank)
  reducesTo_S20000x1024_S_d0_1 : S20000x1024.ReducesTo [0, 1] S_
  h_S_ : 0 < S_.numel
  bcast_S_S20000x256 : S_.BroadcastsInDim S20000x256 (![] : Fin 0 → Fin S20000x256.rank)
  reducesTo_S20000x256_S_d0_1 : S20000x256.ReducesTo [0, 1] S_
  bcast_S_S160000x64 : S_.BroadcastsInDim S160000x64 (![] : Fin 0 → Fin S160000x64.rank)
  reducesTo_S160000x64_S_d0_1 : S160000x64.ReducesTo [0, 1] S_
  bcast_S_S67735x16 : S_.BroadcastsInDim S67735x16 (![] : Fin 0 → Fin S67735x16.rank)
  reducesTo_S67735x16_S_d0_1 : S67735x16.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S64x1024 : S_.BroadcastsInDim S64x1024 (![] : Fin 0 → Fin S64x1024.rank)
  reducesTo_S64x1024_S_d0_1 : S64x1024.ReducesTo [0, 1] S_
  bcast_S_S16x1024 : S_.BroadcastsInDim S16x1024 (![] : Fin 0 → Fin S16x1024.rank)
  reducesTo_S16x1024_S_d0_1 : S16x1024.ReducesTo [0, 1] S_

variable [Facts]

def fn_part2 {F : FTy → Type} [FloatOps F] (main_arg8 : FVec F S16x1024 .f32) (main_v33 : IVec S_ 1) : IVec S_ 1 :=
  let main_v34 : FVec F S16x1024 .f32 := Host.absf main_arg8
  let main_cst_12 : FVec F S_ .f32 := constant S_ .f32 0x7F800000#32
  let main_v35 : FVec F S16x1024 .f32 := broadcastInDim S16x1024 ![] bcast_S_S16x1024 main_cst_12
  let main_v36 : IVec S16x1024 1 := cmpf .olt main_v34 main_v35
  let main_c_13 : IVec S_ 1 := constantI S_ 1 1#1
  let main_v37 : IVec S_ 1 := (fun x v => Host.reduce IntOp.andi x v reducesTo_S16x1024_S_d0_1 h_S_) main_v36 main_c_13
  let main_v38 : IVec S_ 1 := andi main_v33 main_v37
  main_v38

def fn_part1 {F : FTy → Type} [FloatOps F] (main_arg5 : FVec F S1024x1024 .f32) (main_arg6 : FVec F S256x1024 .f32) (main_arg7 : FVec F S64x1024 .f32) (main_arg8 : FVec F S16x1024 .f32) (main_v13 : IVec S_ 1) (main_v16 : IVec S67735x16 1) : IVec S_ 1 :=
  let main_c_5 : IVec S_ 1 := constantI S_ 1 1#1
  let main_v17 : IVec S_ 1 := (fun x v => Host.reduce IntOp.andi x v reducesTo_S67735x16_S_d0_1 h_S_) main_v16 main_c_5
  let main_v18 : IVec S_ 1 := andi main_v13 main_v17
  let main_v19 : FVec F S1024x1024 .f32 := Host.absf main_arg5
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S256x1024 .f32 := Host.absf main_arg6
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S64x1024 .f32 := Host.absf main_arg7
  let main_cst_10 : FVec F S_ .f32 := constant S_ .f32 0x7F800000#32
  let main_v30 : FVec F S64x1024 .f32 := broadcastInDim S64x1024 ![] bcast_S_S64x1024 main_cst_10
  let main_v31 : IVec S64x1024 1 := cmpf .olt main_v29 main_v30
  let main_c_11 : IVec S_ 1 := constantI S_ 1 1#1
  let main_v32 : IVec S_ 1 := (fun x v => Host.reduce IntOp.andi x v reducesTo_S64x1024_S_d0_1 h_S_) main_v31 main_c_11
  let main_v33 : IVec S_ 1 := andi main_v28 main_v32
  fn_part2 (F := F) main_arg8 main_v33

def fn {F : FTy → Type} [FloatOps F] (main_arg0 : IVec S4x2048 32) (main_arg1 : FVec F S20000x1024 .f32) (main_arg2 : FVec F S20000x256 .f32) (main_arg3 : FVec F S160000x64 .f32) (main_arg4 : FVec F S67735x16 .f32) (main_arg5 : FVec F S1024x1024 .f32) (main_arg6 : FVec F S256x1024 .f32) (main_arg7 : FVec F S64x1024 .f32) (main_arg8 : FVec F S16x1024 .f32) : IVec S_ 1 :=
  let main_v0 : FVec F S20000x1024 .f32 := Host.absf main_arg1
  let main_cst : FVec F S_ .f32 := constant S_ .f32 0x7F800000#32
  let main_v1 : FVec F S20000x1024 .f32 := broadcastInDim S20000x1024 ![] bcast_S_S20000x1024 main_cst
  let main_v2 : IVec S20000x1024 1 := cmpf .olt main_v0 main_v1
  let main_c : IVec S_ 1 := constantI S_ 1 1#1
  let main_v3 : IVec S_ 1 := (fun x v => Host.reduce IntOp.andi x v reducesTo_S20000x1024_S_d0_1 h_S_) main_v2 main_c
  let main_v4 : FVec F S20000x256 .f32 := Host.absf main_arg2
  let main_cst_0 : FVec F S_ .f32 := constant S_ .f32 0x7F800000#32
  let main_v5 : FVec F S20000x256 .f32 := broadcastInDim S20000x256 ![] bcast_S_S20000x256 main_cst_0
  let main_v6 : IVec S20000x256 1 := cmpf .olt main_v4 main_v5
  let main_c_1 : IVec S_ 1 := constantI S_ 1 1#1
  let main_v7 : IVec S_ 1 := (fun x v => Host.reduce IntOp.andi x v reducesTo_S20000x256_S_d0_1 h_S_) main_v6 main_c_1
  let main_v8 : IVec S_ 1 := andi main_v3 main_v7
  let main_v9 : FVec F S160000x64 .f32 := Host.absf main_arg3
  let main_cst_2 : FVec F S_ .f32 := constant S_ .f32 0x7F800000#32
  let main_v10 : FVec F S160000x64 .f32 := broadcastInDim S160000x64 ![] bcast_S_S160000x64 main_cst_2
  let main_v11 : IVec S160000x64 1 := cmpf .olt main_v9 main_v10
  let main_c_3 : IVec S_ 1 := constantI S_ 1 1#1
  let main_v12 : IVec S_ 1 := (fun x v => Host.reduce IntOp.andi x v reducesTo_S160000x64_S_d0_1 h_S_) main_v11 main_c_3
  let main_v13 : IVec S_ 1 := andi main_v8 main_v12
  let main_v14 : FVec F S67735x16 .f32 := Host.absf main_arg4
  let main_cst_4 : FVec F S_ .f32 := constant S_ .f32 0x7F800000#32
  let main_v15 : FVec F S67735x16 .f32 := broadcastInDim S67735x16 ![] bcast_S_S67735x16 main_cst_4
  let main_v16 : IVec S67735x16 1 := cmpf .olt main_v14 main_v15
  fn_part1 (F := F) main_arg5 main_arg6 main_arg7 main_arg8 main_v13 main_v16
-- ==== Kernel.lean ====
abbrev S4x2048 : Shape := ⟨2, ![4, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S256x1024 : Shape := ⟨2, ![256, 1024]⟩
abbrev S64x1024 : Shape := ⟨2, ![64, 1024]⟩
abbrev S16x1024 : Shape := ⟨2, ![16, 1024]⟩
abbrev S8192 : Shape := ⟨1, ![8192]⟩
abbrev S_ : Shape := ⟨0, ![]⟩
abbrev S8192x1 : Shape := ⟨2, ![8192, 1]⟩
abbrev S8192x1024 : Shape := ⟨2, ![8192, 1024]⟩
abbrev S8192x256 : Shape := ⟨2, ![8192, 256]⟩
abbrev S8192x64 : Shape := ⟨2, ![8192, 64]⟩
abbrev S8192x16 : Shape := ⟨2, ![8192, 16]⟩
abbrev S8192x1360 : Shape := ⟨2, ![8192, 1360]⟩
abbrev S1360x1024 : Shape := ⟨2, ![1360, 1024]⟩
abbrev S8192x1408 : Shape := ⟨2, ![8192, 1408]⟩
abbrev S1408x1024 : Shape := ⟨2, ![1408, 1024]⟩
abbrev S1024x1408 : Shape := ⟨2, ![1024, 1408]⟩
abbrev S4x2048x1024 : Shape := ⟨3, ![4, 2048, 1024]⟩

abbrev nBuf : Space → Nat
  | .hbm => 148
  | .vmem => 5
  | .smem => 0
  | _ => 0

abbrev hbmTy0_0 (i : Nat) : BufTy := match i % 128 with
  | 0 => ⟨S4x2048, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S256x1024, .f32⟩
  | 7 => ⟨S64x1024, .f32⟩
  | 8 => ⟨S16x1024, .f32⟩
  | 9 => ⟨S8192, .i32⟩
  | 10 => ⟨S_, .i32⟩
  | 11 => ⟨S8192, .i32⟩
  | 12 => ⟨S8192, .i1⟩
  | 13 => ⟨S_, .i32⟩
  | 14 => ⟨S8192, .i32⟩
  | 15 => ⟨S8192, .i1⟩
  | 16 => ⟨S8192, .i1⟩
  | 17 => ⟨S_, .i32⟩
  | 18 => ⟨S8192, .i32⟩
  | 19 => ⟨S8192, .i32⟩
  | 20 => ⟨S_, .i32⟩
  | 21 => ⟨S_, .i32⟩
  | 22 => ⟨S_, .i32⟩
  | 23 => ⟨S8192, .i32⟩
  | 24 => ⟨S8192, .i32⟩
  | 25 => ⟨S_, .i32⟩
  | 26 => ⟨S8192, .i32⟩
  | 27 => ⟨S8192, .i32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S8192x1024, .f32⟩
  | 37 => ⟨S8192x1, .i1⟩
  | 38 => ⟨S_, .f32⟩
  | 39 => ⟨S8192x1024, .i1⟩
  | 40 => ⟨S8192x1024, .f32⟩
  | 41 => ⟨S8192x1024, .f32⟩
  | 42 => ⟨S_, .i32⟩
  | 43 => ⟨S8192, .i32⟩
  | 44 => ⟨S8192, .i1⟩
  | 45 => ⟨S_, .i32⟩
  | 46 => ⟨S8192, .i32⟩
  | 47 => ⟨S8192, .i1⟩
  | 48 => ⟨S8192, .i1⟩
  | 49 => ⟨S_, .i32⟩
  | 50 => ⟨S8192, .i32⟩
  | 51 => ⟨S8192, .i32⟩
  | 52 => ⟨S_, .i32⟩
  | 53 => ⟨S_, .i32⟩
  | 54 => ⟨S_, .i32⟩
  | 55 => ⟨S8192, .i32⟩
  | 56 => ⟨S8192, .i32⟩
  | 57 => ⟨S_, .i32⟩
  | 58 => ⟨S8192, .i32⟩
  | 59 => ⟨S8192, .i32⟩
  | 60 => ⟨S_, .i32⟩
  | 61 => ⟨S8192, .i32⟩
  | 62 => ⟨S8192, .i1⟩
  | 63 => ⟨S_, .i32⟩
  | 64 => ⟨S8192, .i32⟩
  | 65 => ⟨S8192, .i32⟩
  | 66 => ⟨S8192, .i32⟩
  | 67 => ⟨S8192x1, .i32⟩
  | 68 => ⟨S8192x256, .f32⟩
  | 69 => ⟨S8192x1, .i1⟩
  | 70 => ⟨S_, .f32⟩
  | 71 => ⟨S8192x256, .i1⟩
  | 72 => ⟨S8192x256, .f32⟩
  | 73 => ⟨S8192x256, .f32⟩
  | 74 => ⟨S_, .i32⟩
  | 75 => ⟨S8192, .i32⟩
  | 76 => ⟨S8192, .i1⟩
  | 77 => ⟨S_, .i32⟩
  | 78 => ⟨S8192, .i32⟩
  | 79 => ⟨S8192, .i1⟩
  | 80 => ⟨S8192, .i1⟩
  | 81 => ⟨S_, .i32⟩
  | 82 => ⟨S8192, .i32⟩
  | 83 => ⟨S8192, .i32⟩
  | 84 => ⟨S_, .i32⟩
  | 85 => ⟨S_, .i32⟩
  | 86 => ⟨S_, .i32⟩
  | 87 => ⟨S8192, .i32⟩
  | 88 => ⟨S8192, .i32⟩
  | 89 => ⟨S_, .i32⟩
  | 90 => ⟨S8192, .i32⟩
  | 91 => ⟨S8192, .i32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S8192x64, .f32⟩
  | 101 => ⟨S8192x1, .i1⟩
  | 102 => ⟨S_, .f32⟩
  | 103 => ⟨S8192x64, .i1⟩
  | 104 => ⟨S8192x64, .f32⟩
  | 105 => ⟨S8192x64, .f32⟩
  | 106 => ⟨S_, .i32⟩
  | 107 => ⟨S8192, .i32⟩
  | 108 => ⟨S8192, .i1⟩
  | 109 => ⟨S_, .i32⟩
  | 110 => ⟨S8192, .i32⟩
  | 111 => ⟨S8192, .i1⟩
  | 112 => ⟨S8192, .i1⟩
  | 113 => ⟨S_, .i32⟩
  | 114 => ⟨S8192, .i32⟩
  | 115 => ⟨S8192, .i32⟩
  | 116 => ⟨S_, .i32⟩
  | 117 => ⟨S_, .i32⟩
  | 118 => ⟨S_, .i32⟩
  | 119 => ⟨S8192, .i32⟩
  | 120 => ⟨S8192, .i32⟩
  | 121 => ⟨S_, .i32⟩
  | 122 => ⟨S8192, .i32⟩
  | 123 => ⟨S8192, .i32⟩
  | 124 => ⟨S_, .i32⟩
  | 125 => ⟨S8192, .i32⟩
  | 126 => ⟨S8192, .i1⟩
  | 127 => ⟨S_, .i32⟩
  | _ => ⟨S4x2048, .i32⟩

abbrev hbmTy0_1 (i : Nat) : BufTy := match i % 128 with
  | 0 => ⟨S8192, .i32⟩
  | 1 => ⟨S8192, .i32⟩
  | 2 => ⟨S8192, .i32⟩
  | 3 => ⟨S8192x1, .i32⟩
  | 4 => ⟨S8192x16, .f32⟩
  | 5 => ⟨S8192x1, .i1⟩
  | 6 => ⟨S_, .f32⟩
  | 7 => ⟨S8192x16, .i1⟩
  | 8 => ⟨S8192x16, .f32⟩
  | 9 => ⟨S8192x16, .f32⟩
  | 10 => ⟨S8192x1360, .f32⟩
  | 11 => ⟨S1360x1024, .f32⟩
  | 12 => ⟨S_, .i32⟩
  | 13 => ⟨S_, .f32⟩
  | 14 => ⟨S8192x1408, .f32⟩
  | 15 => ⟨S_, .i32⟩
  | 16 => ⟨S_, .f32⟩
  | 17 => ⟨S1408x1024, .f32⟩
  | 18 => ⟨S8192x1024, .f32⟩
  | 19 => ⟨S4x2048x1024, .f32⟩
  | _ => ⟨S4x2048, .i32⟩

abbrev hbmTy (i : Nat) : BufTy := match i / 128 with
  | 0 => hbmTy0_0 i
  | 1 => hbmTy0_1 i
  | _ => ⟨S4x2048, .i32⟩

abbrev bufTy : (tb : Table) → Fin (tcTables nBuf tb) → BufTy
  | .hbm, ⟨i, _⟩ => hbmTy i
  | .local _ .vmem, ⟨0, _⟩ => ⟨S1024x1408, .f32⟩
  | .local _ .vmem, ⟨1, _⟩ => ⟨S1024x1408, .f32⟩
  | .local _ .vmem, ⟨2, _⟩ => ⟨S1408x1024, .f32⟩
  | .local _ .vmem, ⟨3, _⟩ => ⟨S1024x1024, .f32⟩
  | .local _ .vmem, ⟨4, _⟩ => ⟨S1024x1024, .f32⟩
  | _, _ => ⟨S4x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_v8 : Ref sig .tc := ⟨.hbm, 27, rfl⟩
abbrev main_c_4 : Ref sig .tc := ⟨.hbm, 28, rfl⟩
abbrev main_v9 : Ref sig .tc := ⟨.hbm, 29, rfl⟩
abbrev main_v10 : Ref sig .tc := ⟨.hbm, 30, rfl⟩
abbrev main_c_5 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_v17 : Ref sig .tc := ⟨.hbm, 41, rfl⟩
abbrev main_c_6 : Ref sig .tc := ⟨.hbm, 42, rfl⟩
abbrev main_v18 : Ref sig .tc := ⟨.hbm, 43, rfl⟩
abbrev main_v19 : Ref sig .tc := ⟨.hbm, 44, rfl⟩
abbrev main_c_7 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_c_8 : Ref sig .tc := ⟨.hbm, 49, rfl⟩
abbrev main_v23 : Ref sig .tc := ⟨.hbm, 50, rfl⟩
abbrev main_v24 : Ref sig .tc := ⟨.hbm, 51, rfl⟩
abbrev main_c_9 : Ref sig .tc := ⟨.hbm, 52, rfl⟩
abbrev main_c_10 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_v25 : Ref sig .tc := ⟨.hbm, 59, rfl⟩
abbrev main_c_11 : Ref sig .tc := ⟨.hbm, 60, rfl⟩
abbrev main_v26 : Ref sig .tc := ⟨.hbm, 61, rfl⟩
abbrev main_v27 : Ref sig .tc := ⟨.hbm, 62, rfl⟩
abbrev main_c_12 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_13 : Ref sig .tc := ⟨.hbm, 70, rfl⟩
abbrev main_call3_v0 : Ref sig .tc := ⟨.hbm, 71, rfl⟩
abbrev main_call3_v1 : Ref sig .tc := ⟨.hbm, 72, rfl⟩
abbrev main_v34 : Ref sig .tc := ⟨.hbm, 73, rfl⟩
abbrev main_c_14 : Ref sig .tc := ⟨.hbm, 74, rfl⟩
abbrev main_v35 : Ref sig .tc := ⟨.hbm, 75, rfl⟩
abbrev main_v36 : Ref sig .tc := ⟨.hbm, 76, rfl⟩
abbrev main_c_15 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_c_16 : Ref sig .tc := ⟨.hbm, 81, rfl⟩
abbrev main_v40 : Ref sig .tc := ⟨.hbm, 82, rfl⟩
abbrev main_v41 : Ref sig .tc := ⟨.hbm, 83, rfl⟩
abbrev main_c_17 : Ref sig .tc := ⟨.hbm, 84, rfl⟩
abbrev main_c_18 : Ref sig .tc := ⟨.hbm, 85, rfl⟩
abbrev main_call4_v0 : Ref sig .tc := ⟨.hbm, 86, rfl⟩
abbrev main_call4_v1 : Ref sig .tc := ⟨.hbm, 87, rfl⟩
abbrev main_call4_v2 : Ref sig .tc := ⟨.hbm, 88, rfl⟩
abbrev main_call4_v3 : Ref sig .tc := ⟨.hbm, 89, rfl⟩
abbrev main_call4_v4 : Ref sig .tc := ⟨.hbm, 90, rfl⟩
abbrev main_v42 : Ref sig .tc := ⟨.hbm, 91, rfl⟩
abbrev main_c_19 : Ref sig .tc := ⟨.hbm, 92, rfl⟩
abbrev main_v43 : Ref sig .tc := ⟨.hbm, 93, rfl⟩
abbrev main_v44 : Ref sig .tc := ⟨.hbm, 94, rfl⟩
abbrev main_c_20 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_21 : Ref sig .tc := ⟨.hbm, 102, rfl⟩
abbrev main_call5_v0 : Ref sig .tc := ⟨.hbm, 103, rfl⟩
abbrev main_call5_v1 : Ref sig .tc := ⟨.hbm, 104, rfl⟩
abbrev main_v51 : Ref sig .tc := ⟨.hbm, 105, rfl⟩
abbrev main_c_22 : Ref sig .tc := ⟨.hbm, 106, rfl⟩
abbrev main_v52 : Ref sig .tc := ⟨.hbm, 107, rfl⟩
abbrev main_v53 : Ref sig .tc := ⟨.hbm, 108, rfl⟩
abbrev main_c_23 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_c_24 : Ref sig .tc := ⟨.hbm, 113, rfl⟩
abbrev main_v57 : Ref sig .tc := ⟨.hbm, 114, rfl⟩
abbrev main_v58 : Ref sig .tc := ⟨.hbm, 115, rfl⟩
abbrev main_c_25 : Ref sig .tc := ⟨.hbm, 116, rfl⟩
abbrev main_c_26 : Ref sig .tc := ⟨.hbm, 117, rfl⟩
abbrev main_call6_v0 : Ref sig .tc := ⟨.hbm, 118, rfl⟩
abbrev main_call6_v1 : Ref sig .tc := ⟨.hbm, 119, rfl⟩
abbrev main_call6_v2 : Ref sig .tc := ⟨.hbm, 120, rfl⟩
abbrev main_call6_v3 : Ref sig .tc := ⟨.hbm, 121, rfl⟩
abbrev main_call6_v4 : Ref sig .tc := ⟨.hbm, 122, rfl⟩
abbrev main_v59 : Ref sig .tc := ⟨.hbm, 123, rfl⟩
abbrev main_c_27 : Ref sig .tc := ⟨.hbm, 124, rfl⟩
abbrev main_v60 : Ref sig .tc := ⟨.hbm, 125, rfl⟩
abbrev main_v61 : Ref sig .tc := ⟨.hbm, 126, rfl⟩
abbrev main_c_28 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_29 : Ref sig .tc := ⟨.hbm, 134, rfl⟩
abbrev main_call7_v0 : Ref sig .tc := ⟨.hbm, 135, rfl⟩
abbrev main_call7_v1 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_c_30 : Ref sig .tc := ⟨.hbm, 140, rfl⟩
abbrev main_call8_v0 : Ref sig .tc := ⟨.hbm, 141, rfl⟩
abbrev main_v71 : Ref sig .tc := ⟨.hbm, 142, rfl⟩
abbrev main_c_31 : Ref sig .tc := ⟨.hbm, 143, rfl⟩
abbrev main_call9_v0 : Ref sig .tc := ⟨.hbm, 144, rfl⟩
abbrev main_v72 : Ref sig .tc := ⟨.hbm, 145, rfl⟩
abbrev main_v73 : Ref sig .tc := ⟨.hbm, 146, rfl⟩
abbrev main_v74 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1408x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x2048_S8192 : S4x2048.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  bcast_S_S8192x1024 : S_.BroadcastsInDim S8192x1024 (![] : Fin 0 → Fin S8192x1024.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S8192x1_S8192x64_0_1 : S8192x1.BroadcastsInDim S8192x64 (![0, 1] : Fin 2 → Fin S8192x64.rank)
  bcast_S_S8192x64 : S_.BroadcastsInDim S8192x64 (![] : Fin 0 → Fin S8192x64.rank)
  bcast_S8192x1_S8192x16_0_1 : S8192x1.BroadcastsInDim S8192x16 (![0, 1] : Fin 2 → Fin S8192x16.rank)
  bcast_S_S8192x16 : S_.BroadcastsInDim S8192x16 (![] : Fin 0 → Fin S8192x16.rank)
  concatenates_S8192x1024_S8192x256_S8192x64_S8192x16_S8192x1360_d1 : Shape.Concatenates [S8192x1024, S8192x256, S8192x64, S8192x16] S8192x1360 1
  concatenates_S1024x1024_S256x1024_S64x1024_S16x1024_S1360x1024_d0 : Shape.Concatenates [S1024x1024, S256x1024, S64x1024, S16x1024] S1360x1024 0
  pads_S8192x1360_S8192x1408_000_0480 : S8192x1360.Pads (![0, 0] : Fin 2 → Nat) ![0, 48] ![0, 0] S8192x1408
  h_S_ : 0 < S_.numel
  pads_S1360x1024_S1408x1024_0480_000 : S1360x1024.Pads (![0, 0] : Fin 2 → Nat) ![48, 0] ![0, 0] S1408x1024
  inb_S1024x1408_S1024x1408_0_0 : ∀ a, (![0, 0] : Fin 2 → Nat) a + S1024x1408.size a ≤ S1024x1408.size a
  h_S1024x1408 : 0 < S1024x1408.numel
  shapeCasts_S1024x1408_S1024x1408 : S1024x1408.ShapeCasts S1024x1408
  inb_S1408x1024_S1408x1024_0_0 : ∀ a, (![0, 0] : Fin 2 → Nat) a + S1408x1024.size a ≤ S1408x1024.size a
  h_S1408x1024 : 0 < S1408x1024.numel
  shapeCasts_S1408x1024_S1408x1024 : S1408x1024.ShapeCasts S1408x1024
  inb_S1024x1024_S1024x1024_0_0 : ∀ a, (![0, 0] : Fin 2 → Nat) a + S1024x1024.size a ≤ S1024x1024.size a
  h_S1024x1024 : 0 < S1024x1024.numel
  shapeCasts_S8192x1024_S4x2048x1024 : S8192x1024.ShapeCasts S4x2048x1024
  gather_S20000x1024_S8192x1_S8192x1024_1_0_n_n_0_1_11024_wf : GatherDims.WF S20000x1024 S8192x1 S8192x1024 [1] [0] [] [0] [] 1 ![1, 1024]
  gather_S20000x256_S8192x1_S8192x256_1_0_n_n_0_1_1256_wf : GatherDims.WF S20000x256 S8192x1 S8192x256 [1] [0] [] [0] [] 1 ![1, 256]
  gather_S160000x64_S8192x1_S8192x64_1_0_n_n_0_1_164_wf : GatherDims.WF S160000x64 S8192x1 S8192x64 [1] [0] [] [0] [] 1 ![1, 64]
  gather_S67735x16_S8192x1_S8192x16_1_0_n_n_0_1_116_wf : GatherDims.WF S67735x16 S8192x1 S8192x16 [1] [0] [] [0] [] 1 ![1, 16]
  dot_S1024x1408_S1408x1024_S1024x1024_1_0_0_1_n_n_wf : DotDims.WF S1024x1408 S1408x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1408.size a ≤ S8192x1408.size a
  hwx0_0 : ∀ i : grid0.Coords, EltTy.bits .f32 = 32 ∨ (Rect.block (s := S8192x1408) S1024x1408.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1408x1024.size a ≤ S1408x1024.size a
  hwx0_1 : ∀ i : grid0.Coords, EltTy.bits .f32 = 32 ∨ (Rect.block (s := S1408x1024) S1408x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x1024.size a
  hwx0_2 : ∀ i : grid0.Coords, EltTy.bits .f32 = 32 ∨ (Rect.block (s := S8192x1024) S1024x1024.size (cc0_transform_2 i) (hinb0_2 i)).WholeWords (EltTy.packing .f32)

variable [Facts₀]

def gather_S20000x1024_S8192x1_S8192x1024_1_0_n_n_0_1_11024 : GatherDims S20000x1024 S8192x1 S8192x1024 where
  offsetDims := [1]
  collapsedSliceDims := [0]
  operandBatchingDims := []
  startIndicesBatchingDims := []
  startIndexMap := [0]
  indexVectorDim := 1
  sliceSizes := ![1, 1024]
  wf := gather_S20000x1024_S8192x1_S8192x1024_1_0_n_n_0_1_11024_wf
def gather_S20000x256_S8192x1_S8192x256_1_0_n_n_0_1_1256 : GatherDims S20000x256 S8192x1 S8192x256 where
  offsetDims := [1]
  collapsedSliceDims := [0]
  operandBatchingDims := []
  startIndicesBatchingDims := []
  startIndexMap := [0]
  indexVectorDim := 1
  sliceSizes := ![1, 256]
  wf := gather_S20000x256_S8192x1_S8192x256_1_0_n_n_0_1_1256_wf
def gather_S160000x64_S8192x1_S8192x64_1_0_n_n_0_1_164 : GatherDims S160000x64 S8192x1 S8192x64 where
  offsetDims := [1]
  collapsedSliceDims := [0]
  operandBatchingDims := []
  startIndicesBatchingDims := []
  startIndexMap := [0]
  indexVectorDim := 1
  sliceSizes := ![1, 64]
  wf := gather_S160000x64_S8192x1_S8192x64_1_0_n_n_0_1_164_wf
def gather_S67735x16_S8192x1_S8192x16_1_0_n_n_0_1_116 : GatherDims S67735x16 S8192x1 S8192x16 where
  offsetDims := [1]
  collapsedSliceDims := [0]
  operandBatchingDims := []
  startIndicesBatchingDims := []
  startIndexMap := [0]
  indexVectorDim := 1
  sliceSizes := ![1, 16]
  wf := gather_S67735x16_S8192x1_S8192x16_1_0_n_n_0_1_116_wf
def dot_S1024x1408_S1408x1024_S1024x1024_1_0_0_1_n_n : DotDims S1024x1408 S1408x1024 S1024x1024 where
  lhsContracting := [1]
  rhsContracting := [0]
  lhsNonContracting := [0]
  rhsNonContracting := [1]
  lhsBatch := []
  rhsBatch := []
  wf := dot_S1024x1408_S1408x1024_S1024x1024_1_0_0_1_n_n_wf

abbrev win0_0 : Pipeline.Window sig grid0 :=
  Pipeline.Window.ofSpec (Memref.whole main_v71) S1024x1408.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v72) S1408x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v73) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x2048 : Shape := ⟨2, ![4, 2048]⟩
abbrev S20000x1024 : Shape := ⟨2, ![20000, 1024]⟩
abbrev S20000x256 : Shape := ⟨2, ![20000, 256]⟩
abbrev S160000x64 : Shape := ⟨2, ![160000, 64]⟩
abbrev S67735x16 : Shape := ⟨2, ![67735, 16]⟩
abbrev S1024x1024 : Shape := ⟨2, ![1024, 1024]⟩
abbrev S256x1024 : Shape := ⟨2, ![256, 1024]⟩
abbrev S64x1024 : Shape := ⟨2, ![64, 1024]⟩
abbrev S16x1024 : Shape := ⟨2, ![16, 1024]⟩
abbrev S8192 : Shape := ⟨1, ![8192]⟩
abbrev S_ : Shape := ⟨0, ![]⟩
abbrev S8192x1024 : Shape := ⟨2, ![8192, 1024]⟩
abbrev S8192x1 : Shape := ⟨2, ![8192, 1]⟩
abbrev S8192x256 : Shape := ⟨2, ![8192, 256]⟩
abbrev S8192x64 : Shape := ⟨2, ![8192, 64]⟩
abbrev S8192x16 : Shape := ⟨2, ![8192, 16]⟩
abbrev S4x2048x1024 : Shape := ⟨3, ![4, 2048, 1024]⟩

abbrev nBuf : Space → Nat
  | .hbm => 152
  | .vmem => 0
  | .smem => 0
  | _ => 0

abbrev hbmTy0_0 (i : Nat) : BufTy := match i % 128 with
  | 0 => ⟨S4x2048, .i32⟩
  | 1 => ⟨S20000x1024, .f32⟩
  | 2 => ⟨S20000x256, .f32⟩
  | 3 => ⟨S160000x64, .f32⟩
  | 4 => ⟨S67735x16, .f32⟩
  | 5 => ⟨S1024x1024, .f32⟩
  | 6 => ⟨S256x1024, .f32⟩
  | 7 => ⟨S64x1024, .f32⟩
  | 8 => ⟨S16x1024, .f32⟩
  | 9 => ⟨S8192, .i32⟩
  | 10 => ⟨S_, .f32⟩
  | 11 => ⟨S8192x1024, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i1⟩
  | 18 => ⟨S8192, .i1⟩
  | 19 => ⟨S_, .i32⟩
  | 20 => ⟨S8192, .i32⟩
  | 21 => ⟨S8192, .i32⟩
  | 22 => ⟨S_, .i32⟩
  | 23 => ⟨S_, .i32⟩
  | 24 => ⟨S_, .i32⟩
  | 25 => ⟨S8192, .i32⟩
  | 26 => ⟨S8192, .i32⟩
  | 27 => ⟨S_, .i32⟩
  | 28 => ⟨S8192, .i32⟩
  | 29 => ⟨S8192, .i32⟩
  | 30 => ⟨S_, .i32⟩
  | 31 => ⟨S8192, .i32⟩
  | 32 => ⟨S8192, .i1⟩
  | 33 => ⟨S_, .i32⟩
  | 34 => ⟨S8192, .i32⟩
  | 35 => ⟨S8192, .i32⟩
  | 36 => ⟨S8192, .i32⟩
  | 37 => ⟨S8192x1, .i32⟩
  | 38 => ⟨S8192x1024, .f32⟩
  | 39 => ⟨S8192x1024, .f32⟩
  | 40 => ⟨S8192x1, .i1⟩
  | 41 => ⟨S_, .f32⟩
  | 42 => ⟨S8192x1024, .i1⟩
  | 43 => ⟨S8192x1024, .f32⟩
  | 44 => ⟨S8192x1024, .f32⟩
  | 45 => ⟨S8192x1024, .f32⟩
  | 46 => ⟨S_, .i32⟩
  | 47 => ⟨S8192, .i32⟩
  | 48 => ⟨S8192, .i1⟩
  | 49 => ⟨S_, .i32⟩
  | 50 => ⟨S8192, .i32⟩
  | 51 => ⟨S8192, .i1⟩
  | 52 => ⟨S8192, .i1⟩
  | 53 => ⟨S_, .i32⟩
  | 54 => ⟨S8192, .i32⟩
  | 55 => ⟨S8192, .i32⟩
  | 56 => ⟨S_, .i32⟩
  | 57 => ⟨S_, .i32⟩
  | 58 => ⟨S_, .i32⟩
  | 59 => ⟨S8192, .i32⟩
  | 60 => ⟨S8192, .i32⟩
  | 61 => ⟨S_, .i32⟩
  | 62 => ⟨S8192, .i32⟩
  | 63 => ⟨S8192, .i32⟩
  | 64 => ⟨S_, .i32⟩
  | 65 => ⟨S8192, .i32⟩
  | 66 => ⟨S8192, .i1⟩
  | 67 => ⟨S_, .i32⟩
  | 68 => ⟨S8192, .i32⟩
  | 69 => ⟨S8192, .i32⟩
  | 70 => ⟨S8192, .i32⟩
  | 71 => ⟨S8192x1, .i32⟩
  | 72 => ⟨S8192x256, .f32⟩
  | 73 => ⟨S8192x1024, .f32⟩
  | 74 => ⟨S8192x1, .i1⟩
  | 75 => ⟨S_, .f32⟩
  | 76 => ⟨S8192x1024, .i1⟩
  | 77 => ⟨S8192x1024, .f32⟩
  | 78 => ⟨S8192x1024, .f32⟩
  | 79 => ⟨S8192x1024, .f32⟩
  | 80 => ⟨S_, .i32⟩
  | 81 => ⟨S8192, .i32⟩
  | 82 => ⟨S8192, .i1⟩
  | 83 => ⟨S_, .i32⟩
  | 84 => ⟨S8192, .i32⟩
  | 85 => ⟨S8192, .i1⟩
  | 86 => ⟨S8192, .i1⟩
  | 87 => ⟨S_, .i32⟩
  | 88 => ⟨S8192, .i32⟩
  | 89 => ⟨S8192, .i32⟩
  | 90 => ⟨S_, .i32⟩
  | 91 => ⟨S_, .i32⟩
  | 92 => ⟨S_, .i32⟩
  | 93 => ⟨S8192, .i32⟩
  | 94 => ⟨S8192, .i32⟩
  | 95 => ⟨S_, .i32⟩
  | 96 => ⟨S8192, .i32⟩
  | 97 => ⟨S8192, .i32⟩
  | 98 => ⟨S_, .i32⟩
  | 99 => ⟨S8192, .i32⟩
  | 100 => ⟨S8192, .i1⟩
  | 101 => ⟨S_, .i32⟩
  | 102 => ⟨S8192, .i32⟩
  | 103 => ⟨S8192, .i32⟩
  | 104 => ⟨S8192, .i32⟩
  | 105 => ⟨S8192x1, .i32⟩
  | 106 => ⟨S8192x64, .f32⟩
  | 107 => ⟨S8192x1024, .f32⟩
  | 108 => ⟨S8192x1, .i1⟩
  | 109 => ⟨S_, .f32⟩
  | 110 => ⟨S8192x1024, .i1⟩
  | 111 => ⟨S8192x1024, .f32⟩
  | 112 => ⟨S8192x1024, .f32⟩
  | 113 => ⟨S8192x1024, .f32⟩
  | 114 => ⟨S_, .i32⟩
  | 115 => ⟨S8192, .i32⟩
  | 116 => ⟨S8192, .i1⟩
  | 117 => ⟨S_, .i32⟩
  | 118 => ⟨S8192, .i32⟩
  | 119 => ⟨S8192, .i1⟩
  | 120 => ⟨S8192, .i1⟩
  | 121 => ⟨S_, .i32⟩
  | 122 => ⟨S8192, .i32⟩
  | 123 => ⟨S8192, .i32⟩
  | 124 => ⟨S_, .i32⟩
  | 125 => ⟨S_, .i32⟩
  | 126 => ⟨S_, .i32⟩
  | 127 => ⟨S8192, .i32⟩
  | _ => ⟨S4x2048, .i32⟩

abbrev hbmTy0_1 (i : Nat) : BufTy := match i % 128 with
  | 0 => ⟨S8192, .i32⟩
  | 1 => ⟨S_, .i32⟩
  | 2 => ⟨S8192, .i32⟩
  | 3 => ⟨S8192, .i32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x16, .f32⟩
  | 13 => ⟨S8192x1024, .f32⟩
  | 14 => ⟨S8192x1, .i1⟩
  | 15 => ⟨S_, .f32⟩
  | 16 => ⟨S8192x1024, .i1⟩
  | 17 => ⟨S8192x1024, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S4x2048x1024, .f32⟩
  | _ => ⟨S4x2048, .i32⟩

abbrev hbmTy (i : Nat) : BufTy := match i / 128 with
  | 0 => hbmTy0_0 i
  | 1 => hbmTy0_1 i
  | _ => ⟨S4x2048, .i32⟩

abbrev bufTy : (tb : Table) → Fin (tcTables nBuf tb) → BufTy
  | .hbm, ⟨i, _⟩ => hbmTy i
  | _, _ => ⟨S4x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c_1 : Ref sig .tc := ⟨.hbm, 19, rfl⟩
abbrev main_v7 : Ref sig .tc := ⟨.hbm, 20, rfl⟩
abbrev main_v8 : Ref sig .tc := ⟨.hbm, 21, rfl⟩
abbrev main_c_2 : Ref sig .tc := ⟨.hbm, 22, rfl⟩
abbrev main_c_3 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v9 : Ref sig .tc := ⟨.hbm, 29, rfl⟩
abbrev main_c_4 : Ref sig .tc := ⟨.hbm, 30, rfl⟩
abbrev main_v10 : Ref sig .tc := ⟨.hbm, 31, rfl⟩
abbrev main_v11 : Ref sig .tc := ⟨.hbm, 32, rfl⟩
abbrev main_c_5 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_6 : Ref sig .tc := ⟨.hbm, 41, rfl⟩
abbrev main_call1_v0 : Ref sig .tc := ⟨.hbm, 42, rfl⟩
abbrev main_call1_v1 : Ref sig .tc := ⟨.hbm, 43, rfl⟩
abbrev main_v19 : Ref sig .tc := ⟨.hbm, 44, rfl⟩
abbrev main_v20 : Ref sig .tc := ⟨.hbm, 45, rfl⟩
abbrev main_c_7 : Ref sig .tc := ⟨.hbm, 46, rfl⟩
abbrev main_v21 : Ref sig .tc := ⟨.hbm, 47, rfl⟩
abbrev main_v22 : Ref sig .tc := ⟨.hbm, 48, rfl⟩
abbrev main_c_8 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_c_9 : Ref sig .tc := ⟨.hbm, 53, rfl⟩
abbrev main_v26 : Ref sig .tc := ⟨.hbm, 54, rfl⟩
abbrev main_v27 : Ref sig .tc := ⟨.hbm, 55, rfl⟩
abbrev main_c_10 : Ref sig .tc := ⟨.hbm, 56, rfl⟩
abbrev main_c_11 : Ref sig .tc := ⟨.hbm, 57, rfl⟩
abbrev main_call2_v0 : Ref sig .tc := ⟨.hbm, 58, rfl⟩
abbrev main_call2_v1 : Ref sig .tc := ⟨.hbm, 59, rfl⟩
abbrev main_call2_v2 : Ref sig .tc := ⟨.hbm, 60, rfl⟩
abbrev main_call2_v3 : Ref sig .tc := ⟨.hbm, 61, rfl⟩
abbrev main_call2_v4 : Ref sig .tc := ⟨.hbm, 62, rfl⟩
abbrev main_v28 : Ref sig .tc := ⟨.hbm, 63, rfl⟩
abbrev main_c_12 : Ref sig .tc := ⟨.hbm, 64, rfl⟩
abbrev main_v29 : Ref sig .tc := ⟨.hbm, 65, rfl⟩
abbrev main_v30 : Ref sig .tc := ⟨.hbm, 66, rfl⟩
abbrev main_c_13 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_cst_14 : Ref sig .tc := ⟨.hbm, 75, rfl⟩
abbrev main_call3_v0 : Ref sig .tc := ⟨.hbm, 76, rfl⟩
abbrev main_call3_v1 : Ref sig .tc := ⟨.hbm, 77, rfl⟩
abbrev main_v38 : Ref sig .tc := ⟨.hbm, 78, rfl⟩
abbrev main_v39 : Ref sig .tc := ⟨.hbm, 79, rfl⟩
abbrev main_c_15 : Ref sig .tc := ⟨.hbm, 80, rfl⟩
abbrev main_v40 : Ref sig .tc := ⟨.hbm, 81, rfl⟩
abbrev main_v41 : Ref sig .tc := ⟨.hbm, 82, rfl⟩
abbrev main_c_16 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_c_17 : Ref sig .tc := ⟨.hbm, 87, rfl⟩
abbrev main_v45 : Ref sig .tc := ⟨.hbm, 88, rfl⟩
abbrev main_v46 : Ref sig .tc := ⟨.hbm, 89, rfl⟩
abbrev main_c_18 : Ref sig .tc := ⟨.hbm, 90, rfl⟩
abbrev main_c_19 : Ref sig .tc := ⟨.hbm, 91, rfl⟩
abbrev main_call4_v0 : Ref sig .tc := ⟨.hbm, 92, rfl⟩
abbrev main_call4_v1 : Ref sig .tc := ⟨.hbm, 93, rfl⟩
abbrev main_call4_v2 : Ref sig .tc := ⟨.hbm, 94, rfl⟩
abbrev main_call4_v3 : Ref sig .tc := ⟨.hbm, 95, rfl⟩
abbrev main_call4_v4 : Ref sig .tc := ⟨.hbm, 96, rfl⟩
abbrev main_v47 : Ref sig .tc := ⟨.hbm, 97, rfl⟩
abbrev main_c_20 : Ref sig .tc := ⟨.hbm, 98, rfl⟩
abbrev main_v48 : Ref sig .tc := ⟨.hbm, 99, rfl⟩
abbrev main_v49 : Ref sig .tc := ⟨.hbm, 100, rfl⟩
abbrev main_c_21 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_22 : Ref sig .tc := ⟨.hbm, 109, rfl⟩
abbrev main_call5_v0 : Ref sig .tc := ⟨.hbm, 110, rfl⟩
abbrev main_call5_v1 : Ref sig .tc := ⟨.hbm, 111, rfl⟩
abbrev main_v57 : Ref sig .tc := ⟨.hbm, 112, rfl⟩
abbrev main_v58 : Ref sig .tc := ⟨.hbm, 113, rfl⟩
abbrev main_c_23 : Ref sig .tc := ⟨.hbm, 114, rfl⟩
abbrev main_v59 : Ref sig .tc := ⟨.hbm, 115, rfl⟩
abbrev main_v60 : Ref sig .tc := ⟨.hbm, 116, rfl⟩
abbrev main_c_24 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_c_25 : Ref sig .tc := ⟨.hbm, 121, rfl⟩
abbrev main_v64 : Ref sig .tc := ⟨.hbm, 122, rfl⟩
abbrev main_v65 : Ref sig .tc := ⟨.hbm, 123, rfl⟩
abbrev main_c_26 : Ref sig .tc := ⟨.hbm, 124, rfl⟩
abbrev main_c_27 : Ref sig .tc := ⟨.hbm, 125, rfl⟩
abbrev main_call6_v0 : Ref sig .tc := ⟨.hbm, 126, rfl⟩
abbrev main_call6_v1 : Ref sig .tc := ⟨.hbm, 127, rfl⟩
abbrev main_call6_v2 : Ref sig .tc := ⟨.hbm, 128, rfl⟩
abbrev main_call6_v3 : Ref sig .tc := ⟨.hbm, 129, rfl⟩
abbrev main_call6_v4 : Ref sig .tc := ⟨.hbm, 130, rfl⟩
abbrev main_v66 : Ref sig .tc := ⟨.hbm, 131, rfl⟩
abbrev main_c_28 : Ref sig .tc := ⟨.hbm, 132, rfl⟩
abbrev main_v67 : Ref sig .tc := ⟨.hbm, 133, rfl⟩
abbrev main_v68 : Ref sig .tc := ⟨.hbm, 134, rfl⟩
abbrev main_c_29 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_v75 : Ref sig .tc := ⟨.hbm, 142, rfl⟩
abbrev main_cst_30 : Ref sig .tc := ⟨.hbm, 143, rfl⟩
abbrev main_call7_v0 : Ref sig .tc := ⟨.hbm, 144, rfl⟩
abbrev main_call7_v1 : Ref sig .tc := ⟨.hbm, 145, rfl⟩
abbrev main_v76 : Ref sig .tc := ⟨.hbm, 146, rfl⟩
abbrev main_v77 : Ref sig .tc := ⟨.hbm, 147, rfl⟩
abbrev main_cst_31 : Ref sig .tc := ⟨.hbm, 148, rfl⟩
abbrev main_v78 : Ref sig .tc := ⟨.hbm, 149, rfl⟩
abbrev main_v79 : Ref sig .tc := ⟨.hbm, 150, rfl⟩
abbrev main_v80 : Ref sig .tc := ⟨.hbm, 151, rfl⟩

abbrev nD : Nat := 1
abbrev τ : Topo := Topo.v7x

variable {F : FTy → Type} [FloatOps F]

class Facts₀ : Prop where
  shapeCasts_S4x2048_S8192 : S4x2048.ShapeCasts S8192
  bcast_S_S8192x1024 : S_.BroadcastsInDim S8192x1024 (![] : Fin 0 → Fin S8192x1024.rank)
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x1024_0_1 : S8192x1.BroadcastsInDim S8192x1024 (![0, 1] : Fin 2 → Fin S8192x1024.rank)
  shapeCasts_S8192x1024_S4x2048x1024 : S8192x1024.ShapeCasts S4x2048x1024
  gather_S20000x1024_S8192x1_S8192x1024_1_0_n_n_0_1_11024_wf : GatherDims.WF S20000x1024 S8192x1 S8192x1024 [1] [0] [] [0] [] 1 ![1, 1024]
  dot_S8192x1024_S1024x1024_S8192x1024_1_0_0_1_n_n_wf : DotDims.WF S8192x1024 S1024x1024 S8192x1024 [1] [0] [0] [1] [] []
  gather_S20000x256_S8192x1_S8192x256_1_0_n_n_0_1_1256_wf : GatherDims.WF S20000x256 S8192x1 S8192x256 [1] [0] [] [0] [] 1 ![1, 256]
  dot_S8192x256_S256x1024_S8192x1024_1_0_0_1_n_n_wf : DotDims.WF S8192x256 S256x1024 S8192x1024 [1] [0] [0] [1] [] []
  gather_S160000x64_S8192x1_S8192x64_1_0_n_n_0_1_164_wf : GatherDims.WF S160000x64 S8192x1 S8192x64 [1] [0] [] [0] [] 1 ![1, 64]
  dot_S8192x64_S64x1024_S8192x1024_1_0_0_1_n_n_wf : DotDims.WF S8192x64 S64x1024 S8192x1024 [1] [0] [0] [1] [] []
  gather_S67735x16_S8192x1_S8192x16_1_0_n_n_0_1_116_wf : GatherDims.WF S67735x16 S8192x1 S8192x16 [1] [0] [] [0] [] 1 ![1, 16]
  dot_S8192x16_S16x1024_S8192x1024_1_0_0_1_n_n_wf : DotDims.WF S8192x16 S16x1024 S8192x1024 [1] [0] [0] [1] [] []

variable [Facts₀]

def gather_S20000x1024_S8192x1_S8192x1024_1_0_n_n_0_1_11024 : GatherDims S20000x1024 S8192x1 S8192x1024 where
  offsetDims := [1]
  collapsedSliceDims := [0]
  operandBatchingDims := []
  startIndicesBatchingDims := []
  startIndexMap := [0]
  indexVectorDim := 1
  sliceSizes := ![1, 1024]
  wf := gather_S20000x1024_S8192x1_S8192x1024_1_0_n_n_0_1_11024_wf
def dot_S8192x1024_S1024x1024_S8192x1024_1_0_0_1_n_n : DotDims S8192x1024 S1024x1024 S8192x1024 where
  lhsContracting := [1]
  rhsContracting := [0]
  lhsNonContracting := [0]
  rhsNonContracting := [1]
  lhsBatch := []
  rhsBatch := []
  wf := dot_S8192x1024_S1024x1024_S8192x1024_1_0_0_1_n_n_wf
def gather_S20000x256_S8192x1_S8192x256_1_0_n_n_0_1_1256 : GatherDims S20000x256 S8192x1 S8192x256 where
  offsetDims := [1]
  collapsedSliceDims := [0]
  operandBatchingDims := []
  startIndicesBatchingDims := []
  startIndexMap := [0]
  indexVectorDim := 1
  sliceSizes := ![1, 256]
  wf := gather_S20000x256_S8192x1_S8192x256_1_0_n_n_0_1_1256_wf
def dot_S8192x256_S256x1024_S8192x1024_1_0_0_1_n_n : DotDims S8192x256 S256x1024 S8192x1024 where
  lhsContracting := [1]
  rhsContracting := [0]
  lhsNonContracting := [0]
  rhsNonContracting := [1]
  lhsBatch := []
  rhsBatch := []
  wf := dot_S8192x256_S256x1024_S8192x1024_1_0_0_1_n_n_wf
def gather_S160000x64_S8192x1_S8192x64_1_0_n_n_0_1_164 : GatherDims S160000x64 S8192x1 S8192x64 where
  offsetDims := [1]
  collapsedSliceDims := [0]
  operandBatchingDims := []
  startIndicesBatchingDims := []
  startIndexMap := [0]
  indexVectorDim := 1
  sliceSizes := ![1, 64]
  wf := gather_S160000x64_S8192x1_S8192x64_1_0_n_n_0_1_164_wf
def dot_S8192x64_S64x1024_S8192x1024_1_0_0_1_n_n : DotDims S8192x64 S64x1024 S8192x1024 where
  lhsContracting := [1]
  rhsContracting := [0]
  lhsNonContracting := [0]
  rhsNonContracting := [1]
  lhsBatch := []
  rhsBatch := []
  wf := dot_S8192x64_S64x1024_S8192x1024_1_0_0_1_n_n_wf
def gather_S67735x16_S8192x1_S8192x16_1_0_n_n_0_1_116 : GatherDims S67735x16 S8192x1 S8192x16 where
  offsetDims := [1]
  collapsedSliceDims := [0]
  operandBatchingDims := []
  startIndicesBatchingDims := []
  startIndexMap := [0]
  indexVectorDim := 1
  sliceSizes := ![1, 16]
  wf := gather_S67735x16_S8192x1_S8192x16_1_0_n_n_0_1_116_wf
def dot_S8192x16_S16x1024_S8192x1024_1_0_0_1_n_n : DotDims S8192x16 S16x1024 S8192x1024 where
  lhsContracting := [1]
  rhsContracting := [0]
  lhsNonContracting := [0]
  rhsNonContracting := [1]
  lhsBatch := []
  rhsBatch := []
  wf := dot_S8192x16_S16x1024_S8192x1024_1_0_0_1_n_n_wf

class Facts : Prop extends Facts₀ where

variable [Facts]
-- ==== Proof.KEntry.lean ====
/-
  The idealized kernel program's TensorCore buffers at the moment its one region is entered: the valuation
  obtained by applying, in order, every host operation that precedes the region (twenty stretches: the main
  function's own lines and the bodies of the module-local functions it calls) to the launch memory.
-/
import proofs.«168319_j55327768707951_2_alg».proof.Proof.Gen.KernelIdeal.Launch

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

/-- The stretches of host operations before the region, in program order. -/
abbrev preOps : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18,
   hostOps0_19]

/-- Core `c`'s TensorCore buffer contents when the region is entered. -/
abbrev V0 (c : Dev nD) : Valuation τ sig (Elt F) := StableHlo.after (List.flatten (preOps (F := F))) (fun b => m (c, b))

/-- The same, read at a TensorCore reference. -/
abbrev V (c : Dev nD) (b : Ref sig .tc) : Buf (Elt F) ((c : Thread nD τ).loc b) := V0 m c (Proc.devRef .tc b)

end Cert.KernelIdeal.Hand

end
-- ==== Proof.KFrame.lean ====
/-
  The frame of the idealized kernel program, at any float instance: the program is twenty stretches of host
  operations, ONE region over a grid of eight points, and one reshape. At each point the region's body loads a
  1024 x 1408 block of the left operand and the whole 1408 x 1024 right operand, and stores into the output
  window's 1024 x 1024 block the product of the two scaled by a constant; it keeps nothing between points. So every
  weakly fair execution terminates without fault, the nine argument arrays end as launched (no host line writes
  one, and no window stages one), and the output array ends as the blocks the points wrote back.
-/
import proofs.«168319_j55327768707951_2_alg».proof.Proof.KEntry
import proofs.«168319_j55327768707951_2_alg».proof.Proof.Gen.KernelIdeal.Skeleton
import proofs.«168319_j55327768707951_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Every host operation before the region touches TensorCore references only. -/
theorem preOps_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub⟩

/-- None of them allocates. -/
theorem preOps_fresh : (preOps (F := F)).Forall fun ops => ops.Forall fun op => op.fresh = ∅ := by
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.Forall]; repeat' constructor

theorem hostOps1_fresh : (hostOps1 : List (HloOp τ sig (Elt F))).Forall fun op => op.fresh = ∅ := by
  simp only [List.Forall]; repeat' constructor

/-- The program is its host stretches, then the region, then the last reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The reshape after the region touches only unscoped TensorCore references. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- And it writes its own result only, which is none of the region's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the right operand, which is fetched at the first point only: its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every unscoped buffer outside
    the region's arrays as the last reshape leaves it ends with the nine argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

/-! ## The body -/

abbrev rA : Rect S1024x1408 := Rect.unit (s := S1024x1408) ![0, 0] S1024x1408.size inb_S1024x1408_S1024x1408_0_0
abbrev rB : Rect S1408x1024 := Rect.unit (s := S1408x1024) ![0, 0] S1408x1024.size inb_S1408x1024_S1408x1024_0_0
abbrev rO : Rect S1024x1024 := Rect.unit (s := S1024x1024) ![0, 0] S1024x1024.size inb_S1024x1024_S1024x1024_0_0

/-- What the body leaves in the output window's staging buffer, from the two input blocks: its one store, which
    covers the buffer. -/
def out0_2 (x0 : Vec F S1024x1408 .f32) (x1 : Vec F S1408x1024 .f32) : Vec F S1024x1024 .f32 :=
  View.canon [⟨rO, k0_pay1 (View.ld x0 rA) (View.ld x1 rB)⟩]

theorem cover0_2 (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

set_option maxHeartbeats 1000000 in
/-- The body on whole staging memrefs, the inputs' at read contents `x0`, `x1` and the output's at anything, runs to the
    continuation holding the inputs' as they were and the output's at `out0_2 x0 x1`. -/
theorem sound_kernel (c : Dev nD) (E : Set ℕ) (i : grid0.Coords)
    (arg1 : Memref sig .tc .vmem S1024x1408 .f32) (harg1 : arg1.IsWhole)
    (arg2 : Memref sig .tc .vmem S1408x1024 .f32) (harg2 : arg2.IsWhole)
    (arg3 : Memref sig .tc .vmem S1024x1024 .f32) (harg3 : arg3.IsWhole)
    (x0 : Vec F S1024x1408 .f32) (x1 : Vec F S1408x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point `t` each input's buffer at its block and the
    output's at `out0_2` of the two input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has the region's arrays at what the
    proof data computes and every other unscoped buffer as the last reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its nine arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.KernelIdeal.Hand

end
-- ==== Proof.KEntryW.lean ====
/-
  The kernel program's TensorCore buffers (the program as printed, read at any float instance) at the moment its one region is entered: the valuation
  obtained by applying, in order, every host operation that precedes the region (twenty stretches: the main
  function's own lines and the bodies of the module-local functions it calls) to the launch memory.
-/
import proofs.«168319_j55327768707951_2_alg».proof.Proof.Gen.Kernel.Launch

noncomputable section

namespace Cert.Kernel.Hand

open Cert.Kernel Cert.Kernel.Gen
open Idealize.ShloMosaic Idealize.ShloMosaic.TcCoe
open Idealize.SL Idealize.SL.Sem

variable {F : FTy → Type} [FloatOps F]
variable (m : (ℓ : Loc nD τ sig) → Buf (Elt F) ℓ)

/-- The stretches of host operations before the region, in program order. -/
abbrev preOps : List (List (HloOp τ sig (Elt F))) :=
  [hostOps0, hostOps0_1, hostOps0_2, hostOps0_3, hostOps0_4, hostOps0_5, hostOps0_6, hostOps0_7, hostOps0_8, hostOps0_9,
   hostOps0_10, hostOps0_11, hostOps0_12, hostOps0_13, hostOps0_14, hostOps0_15, hostOps0_16, hostOps0_17, hostOps0_18,
   hostOps0_19]

/-- Core `c`'s TensorCore buffer contents when the region is entered. -/
abbrev V0 (c : Dev nD) : Valuation τ sig (Elt F) := StableHlo.after (List.flatten (preOps (F := F))) (fun b => m (c, b))

/-- The same, read at a TensorCore reference. -/
abbrev V (c : Dev nD) (b : Ref sig .tc) : Buf (Elt F) ((c : Thread nD τ).loc b) := V0 m c (Proc.devRef .tc b)

end Cert.Kernel.Hand

end
-- ==== Proof.KFrameW.lean ====
/-
  The frame of the kernel program as printed, at any float instance: the program is twenty stretches of host
  operations, ONE region over a grid of eight points, and one reshape. At each point the region's body loads a
  1024 x 1408 block of the left operand and the whole 1408 x 1024 right operand, and stores into the output
  window's 1024 x 1024 block the product of the two scaled by a constant; it keeps nothing between points. So every
  weakly fair execution terminates without fault, the nine argument arrays end as launched (no host line writes
  one, and no window stages one), and the output array ends as the blocks the points wrote back.
-/
import proofs.«168319_j55327768707951_2_alg».proof.Proof.KEntryW
import proofs.«168319_j55327768707951_2_alg».proof.Proof.Gen.Kernel.Skeleton
import proofs.«168319_j55327768707951_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program around its region -/

/-- Every host operation before the region touches TensorCore references only. -/
theorem preOps_sub : (preOps (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub⟩

/-- None of them allocates. -/
theorem preOps_fresh : (preOps (F := F)).Forall fun ops => ops.Forall fun op => op.fresh = ∅ := by
  simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.Forall]; repeat' constructor

theorem hostOps1_fresh : (hostOps1 : List (HloOp τ sig (Elt F))).Forall fun op => op.fresh = ∅ := by
  simp only [List.Forall]; repeat' constructor

/-- The program is its host stretches, then the region, then the last reshape. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main preOps [hostOps1] preOps_sub preOps_fresh main_chain

/-- The reshape after the region touches only unscoped TensorCore references. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop

/-- And it writes its own result only, which is none of the region's three arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 0 ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 1 ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 2 ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 3 ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg3 (by exact (by decide : ∀ w, Pipeline.arrRef spec0 w ≠ main_arg3))]
  exact V_main_arg3 m c

/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 4 ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg4 (by exact (by decide : ∀ w, Pipeline.arrRef spec0 w ≠ main_arg4))]
  exact V_main_arg4 m c

/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 5 ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg5 (by exact (by decide : ∀ w, Pipeline.arrRef spec0 w ≠ main_arg5))]
  exact V_main_arg5 m c

/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 6 ends as launched. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg6 (by exact (by decide : ∀ w, Pipeline.arrRef spec0 w ≠ main_arg6))]
  exact V_main_arg6 m c

/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 7 ends as launched. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg7 (by exact (by decide : ∀ w, Pipeline.arrRef spec0 w ≠ main_arg7))]
  exact V_main_arg7 m c

/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [preOps, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the reshape after the region: argument 8 ends as launched. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne (by decide))),
    Pipeline.withArrays_of_ne _ c (V0 m c) _ main_arg8 (by exact (by decide : ∀ w, Pipeline.arrRef spec0 w ≠ main_arg8))]
  exact V_main_arg8 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The left operand's staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The same for the right operand, which is fetched at the first point only: its block index never moves. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run ending with every unscoped buffer outside
    the region's arrays as the last reshape leaves it ends with the nine argument arrays as launched. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c),
    ((h c).2 main_arg4 (Pipeline.mem_restRefs_of main_arg4 (by decide) (by decide))).trans (W_main_arg4 m dats c),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c)⟩) h

/-! ## The body -/

abbrev rA : Rect S1024x1408 := Rect.unit (s := S1024x1408) ![0, 0] S1024x1408.size inb_S1024x1408_S1024x1408_0_0
abbrev rB : Rect S1408x1024 := Rect.unit (s := S1408x1024) ![0, 0] S1408x1024.size inb_S1408x1024_S1408x1024_0_0
abbrev rO : Rect S1024x1024 := Rect.unit (s := S1024x1024) ![0, 0] S1024x1024.size inb_S1024x1024_S1024x1024_0_0

/-- What the body leaves in the output window's staging buffer, from the two input blocks: its one store, which
    covers the buffer. -/
def out0_2 (x0 : Vec F S1024x1408 .f32) (x1 : Vec F S1408x1024 .f32) : Vec F S1024x1024 .f32 :=
  View.canon [⟨rO, k0_pay1 (View.ld x0 rA) (View.ld x1 rB)⟩]

theorem cover0_2 (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

set_option maxHeartbeats 1000000 in
/-- The body on whole staging memrefs, the inputs' at read contents `x0`, `x1` and the output's at anything, runs to the
    continuation holding the inputs' as they were and the output's at `out0_2 x0 x1`. -/
theorem sound_kernel (c : Dev nD) (E : Set ℕ) (i : grid0.Coords)
    (arg1 : Memref sig .tc .vmem S1024x1408 .f32) (harg1 : arg1.IsWhole)
    (arg2 : Memref sig .tc .vmem S1408x1024 .f32) (harg2 : arg2.IsWhole)
    (arg3 : Memref sig .tc .vmem S1024x1024 .f32) (harg3 : arg3.IsWhole)
    (x0 : Vec F S1024x1408 .f32) (x1 : Vec F S1408x1024 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The region's proof data -/

/-- The arrays as the region finds them; after the body at point `t` each input's buffer at its block and the
    output's at `out0_2` of the two input blocks; nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and every final state has the region's arrays at what the
    proof data computes and every other unscoped buffer as the last reshape leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to the end, faults nowhere, and leaves its nine arguments unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ (dats m) (run_main m ρ)

end Cert.Kernel.Hand

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.KValue.lean ====
/-
  What the idealized kernel program computes, on the extended reals. At grid point `t` the body multiplies rows
  1024 t … 1024 t + 1023 of the left operand (all 1408 columns) by the whole right operand and scales by the
  constant; the eight blocks written back are disjoint and fill the 8192 x 1024 output, so the output array ends as
  ONE function of the two operand arrays as the region finds them: at (r, e) the sum over k < 1408 of
  left (r, k) * right (k, e), times the constant. The program's result is that array reshaped to 4 x 2048 x 1024.
-/
import proofs.«168319_j55327768707951_2_alg».proof.Proof.KFrame
import proofs.«168319_j55327768707951_2_alg».proof.Proof.LibDotRows
import Idealize.ShloMosaic.Lib.Pipeline.Value
import Idealize.ShloMosaic.Lib.ValueIdx
import Idealize.ShloMosaic.Lib.StableHlo.Run
import Idealize.ShloMosaic.PureOps.Ideal.Laws

set_option maxRecDepth 16384
set_option maxHeartbeats 1000000

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The product of an 8192 x 1408 matrix and a 1408 x 1024 matrix, scaled by the constant 32 (kept as its word). -/
def scaledProduct (A : S8192x1408.Idx → EReal) (B : S1408x1024.Idx → EReal) : S8192x1024.Idx → EReal :=
  fun i => (∑ k : Fin 1408, A (ix2 (i 0) k) * B (ix2 k (i 1))) * Ideal.ofBits .f32 0x42000000#32

/-- The body's arithmetic at an element: row `p` of the left block against column `q` of the right block, scaled. -/
theorem pay_apply (x0 : Vec Ideal S1024x1408 .f32) (x1 : Vec Ideal S1408x1024 .f32) (p q : Fin 1024) :
    k0_pay1 (F := Ideal) x0 x1 (ix2 p q)
      = (∑ k : Fin 1408, x0 (ix2 p k) * x1 (ix2 k q)) * Ideal.ofBits .f32 0x42000000#32 := by
  unfold k0_pay1
  rw [mulf_apply, broadcast_apply, shapeCast_self, shapeCast_self]
  exact congrArg (· * Ideal.ofBits .f32 0x42000000#32)
    (matmul_zero_rows dot_S1024x1408_S1408x1024_S1024x1024_1_0_0_1_n_n (some .fp32) rfl rfl
      (fun _ _ => rfl) (fun _ _ => rfl) (fun _ _ => rfl) (fun _ _ => rfl) x0 x1 p q)

/-- The left operand array as the region finds it (8192 x 1408). -/
abbrev opA (c : Dev nD) : S8192x1408.Idx → EReal := V m c main_v71
/-- The right operand array as the region finds it (1408 x 1024). -/
abbrev opB (c : Dev nD) : S1408x1024.Idx → EReal := V m c main_v72

theorem hz : (![0, 0] : Fin 2 → Nat) = fun _ => 0 := funext fun a => by fin_cases a <;> rfl

/-- The printed index maps, decided over the grid: the left operand's and the output's row-block index is the point,
    every other block index is zero. -/
theorem idx_facts : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) = t.val :=
  (by decide +kernel : ∀ t : Fin grid0.N, _)

/-- What point `t` writes back is block `t` of the scaled product of the two operand arrays. -/
theorem flushed_eq (c : Dev nD) (t : Fin cfg0.N) :
    (dats m 0 c).flushed 2 t = ((cfg0.win 2).blk t).view.read (Elt Ideal) (scaledProduct (opA m c) (opB m c)) := by
  show (cfg0.win 2).cut (grid0.coords t) ((dats m 0 c).after 2 t) = _
  rw [after0_2]
  unfold out0_2
  rw [View.canon_unit_zero hz]
  simp only [View.ld_unit_zero (S := S1024x1408) hz, View.ld_unit_zero (S := S1408x1024) hz]
  obtain ⟨e0, e1, e2, e3, e4, e5⟩ := idx_facts t
  funext j
  obtain ⟨p, q, rfl⟩ : ∃ (p : Fin 1024) (q : Fin 1024), j = ix2 p q := ⟨j 0, j 1, eq_ix2 j⟩
  refine (pay_apply (iblk m c 0 t) (iblk m c 1 t) p q).trans ?_
  show _ = (∑ k : Fin 1408, opA m c (ix2 ((((cfg0.win 2).blk t).view.emb (ix2 p q)) 0) k)
      * opB m c (ix2 k ((((cfg0.win 2).blk t).view.emb (ix2 p q)) 1))) * Ideal.ofBits .f32 0x42000000#32
  refine congrArg (· * Ideal.ofBits .f32 0x42000000#32) (Finset.sum_congr rfl fun k _ => ?_)
  have hA : (iblk m c 0 t : S1024x1408.Idx → EReal) (ix2 p k) = opA m c (ix2 ((((cfg0.win 2).blk t).view.emb (ix2 p q)) 0) k) := by
    show opA m c (((cfg0.win 0).blk t).view.emb (ix2 p k)) = _
    refine congrArg (opA m c) ?_
    funext a; apply Fin.ext
    match a with
    | ⟨0, _⟩ => show win0_0.index t (0 : Fin 2) * 1024 + 1 * p.val = win0_2.index t (0 : Fin 2) * 1024 + 1 * p.val; omega
    | ⟨1, _⟩ => show win0_0.index t (1 : Fin 2) * 1408 + 1 * k.val = k.val; omega
  have hB : (iblk m c 1 t : S1408x1024.Idx → EReal) (ix2 k q) = opB m c (ix2 k ((((cfg0.win 2).blk t).view.emb (ix2 p q)) 1)) := by
    show opB m c (((cfg0.win 1).blk t).view.emb (ix2 k q)) = _
    refine congrArg (opB m c) ?_
    funext a; apply Fin.ext
    match a with
    | ⟨0, _⟩ => show win0_1.index t (0 : Fin 2) * 1408 + 1 * k.val = k.val; omega
    | ⟨1, _⟩ => show win0_1.index t (1 : Fin 2) * 1024 + 1 * q.val = win0_2.index t (1 : Fin 2) * 1024 + 1 * q.val; omega
  rw [hA, hB]

/-- An index of the output array is in point `t`'s block iff each coordinate is in the block's range on its axis. -/
theorem mem_blk (t : Fin cfg0.N) (i : S8192x1024.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v73).slice (win0_2.rect t)).set ↔ _
  rw [View.set_slice_whole, Rect.mem_set_unit]
  exact Iff.rfl

/-- The point whose block holds row `r`: `r / 1024`. -/
def pointOf (i : S8192x1024.Idx) : Fin cfg0.N :=
  ⟨(i 0).val / 1024, by have h : (i 0).val < 8192 := (i 0).isLt; show (i 0).val / 1024 < grid0.N; rw [N_0]; omega⟩

/-- The eight blocks fill the output array. -/
theorem cover (i : S8192x1024.Idx) : ∃ t : Fin cfg0.N, (cfg0.win 2).flush t = true ∧ i ∈ ((cfg0.win 2).blk t).view.set := by
  have hi0 : (i 0).val < 8192 := (i 0).isLt
  have hi1 : (i 1).val < 1024 := (i 1).isLt
  refine ⟨pointOf i, flush0_2 _, ?_⟩
  rw [mem_blk]
  obtain ⟨e0, e1, e2, e3, e4, e5⟩ := idx_facts (pointOf i)
  have e5' : win0_2.index (pointOf i) (0 : Fin 2) = (i 0).val / 1024 := e5
  intro a
  match a with
  | ⟨0, _⟩ => show win0_2.index (pointOf i) (0 : Fin 2) * 1024 ≤ (i 0).val ∧ (i 0).val < win0_2.index (pointOf i) (0 : Fin 2) * 1024 + 1024; omega
  | ⟨1, _⟩ => show win0_2.index (pointOf i) (1 : Fin 2) * 1024 ≤ (i 1).val ∧ (i 1).val < win0_2.index (pointOf i) (1 : Fin 2) * 1024 + 1024; omega

/-- The output array after the run: the scaled product of the operand arrays as the region finds them. -/
theorem final (c : Dev nD) : (dats m 0 c).arrAt 2 cfg0.N = scaledProduct (opA m c) (opB m c) :=
  (dats m 0 c).arrAt_eq_of_cover 2 _ (fun t _ => flushed_eq m c t) cover

/-- The program's result: the reshape after the region reads the output array. -/
theorem result_eq (c : Dev nD) :
    Pipeline.afterTail₀ cfgs (dats m) 0 (V0 m) [hostOps1] c main_v74
      = shapeCast S4x2048x1024 (scaledProduct (opA m c) (opB m c)) shapeCasts_S8192x1024_S4x2048x1024 := by
  unfold Pipeline.afterTail₀
  show StableHlo.after hostOps1 _ (Proc.devRef .tc main_v74) = _
  after_results
  rw [(Pipeline.withArrays_arr spec0 launch0.win.arr_inj c _ _ 2).trans (final m c)]
  rfl

/-- The run, read: the result buffer at the reshaped scaled product, the nine arguments unchanged. -/
theorem run : θ_run defs (onTc (τ := τ) (main (F := Ideal))) ⟨m, fun _ => 0, ρ⟩ fun r => ∀ c : Dev nD,
      r.2.mem ((c.tc : Thread nD τ).loc main_v74)
        = shapeCast S4x2048x1024 (scaledProduct (opA m c) (opB m c)) shapeCasts_S8192x1024_S4x2048x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨((h c).2 main_v74 (Pipeline.mem_restRefs_of main_v74 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.KernelIdeal.Hand

end
-- ==== Proof.LibTRef.lean ====
/-
  Typed references to tensor buffers carry contents along the equation between the buffer's type and the value's
  type, in both directions.  Going to the buffer and back is the identity: a value an operation writes through a
  typed reference and a later operation reads through the same reference is read unchanged.  General; no program
  is imported.
-/
import Idealize.ShloMosaic.Lib.StableHlo

namespace Idealize.ShloMosaic.StableHlo.TRef

variable {sig : RefSig} {Val : EltTy → Type} {T : BufTy}

/-- Contents carried to a typed reference's buffer and back are the contents. -/
theorem ofBuf_toBuf (x : TRef sig T) (v : T.Contents Val) : x.ofBuf (x.toBuf v) = v := by
  obtain ⟨r, rfl, _, _⟩ := x
  rfl

/-- Contents of the buffer carried to the value's type and back are the contents. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.LibAfter.lean ====
/-
  The contents after two lines of host operations run one after the other: the fold of the concatenated
  line is the fold of the second line over the fold of the first. General; no program is imported.
-/
import Idealize.ShloMosaic.Lib.StableHlo.Run

namespace Idealize.ShloMosaic.StableHlo

variable {τ : Topo} {sig : RefSig} {Val : EltTy → Type}

/-- Folding the operations of `l₁ ++ l₂` over contents `V` is folding `l₂` over what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.KOperandTerms.lean ====
/-
  The two operand arrays of the idealized kernel program's one region, as terms of the argument arrays.

  The token array x0 : i32[4,2048] is flattened to 8192 tokens.  For bucket i (token range [lo_i, hi_i), table of n_i rows
  and d_i columns) the host lines compute a mask  lo_i ≤ token < hi_i  and a gathered block: the table's row at
  clip(token − lo_i, 0, n_i − 1), with a negative row number wrapped by n_i.  The left operand is the four blocks, each
  zeroed where its mask is off, laid side by side (1360 columns) and padded with 48 zero columns; the right operand is
  the four projection matrices stacked (1360 rows) and padded with 48 zero rows.  The masks and the gathered blocks
  are named here as whole-array terms and are not opened.
-/
import proofs.«168319_j55327768707951_2_alg».proof.Proof.KEntry
import proofs.«168319_j55327768707951_2_alg».proof.Proof.LibTRef
import proofs.«168319_j55327768707951_2_alg».proof.Proof.LibAfter
import Idealize.ShloMosaic.Lib.StableHlo.Run

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! ## The tokens, the masks, the gathered blocks -/

/-- The 8192 tokens in row-major order. -/
def flatK (x0 : (⟨S4x2048, .i32⟩ : BufTy).Contents (Elt F)) : (⟨S8192, .i32⟩ : BufTy).Contents (Elt F) :=
  shapeCast _ x0 shapeCasts_S4x2048_S8192

/-- Bucket 0's mask: 0 ≤ token < 20000. -/
def maskK_0 (x0 : (⟨S4x2048, .i32⟩ : BufTy).Contents (Elt F)) : (⟨S8192, .i1⟩ : BufTy).Contents (Elt F) :=
  andi (cmpi .sge (shapeCast _ x0 shapeCasts_S4x2048_S8192) (broadcastInDim S8192 ![] bcast_S_S8192 (constantI S_ 32 0#32)))
    (cmpi .slt (shapeCast _ x0 shapeCasts_S4x2048_S8192) (broadcastInDim S8192 ![] bcast_S_S8192 (constantI S_ 32 20000#32)))
/-- Bucket 1's mask: 20000 ≤ token < 40000. -/
def maskK_1 (x0 : (⟨S4x2048, .i32⟩ : BufTy).Contents (Elt F)) : (⟨S8192, .i1⟩ : BufTy).Contents (Elt F) :=
  andi (cmpi .sge (shapeCast _ x0 shapeCasts_S4x2048_S8192) (broadcastInDim S8192 ![] bcast_S_S8192 (constantI S_ 32 20000#32)))
    (cmpi .slt (shapeCast _ x0 shapeCasts_S4x2048_S8192) (broadcastInDim S8192 ![] bcast_S_S8192 (constantI S_ 32 40000#32)))
/-- Bucket 2's mask: 40000 ≤ token < 200000. -/
def maskK_2 (x0 : (⟨S4x2048, .i32⟩ : BufTy).Contents (Elt F)) : (⟨S8192, .i1⟩ : BufTy).Contents (Elt F) :=
  andi (cmpi .sge (shapeCast _ x0 shapeCasts_S4x2048_S8192) (broadcastInDim S8192 ![] bcast_S_S8192 (constantI S_ 32 40000#32)))
    (cmpi .slt (shapeCast _ x0 shapeCasts_S4x2048_S8192) (broadcastInDim S8192 ![] bcast_S_S8192 (constantI S_ 32 200000#32)))
/-- Bucket 3's mask: 200000 ≤ token < 267735. -/
def maskK_3 (x0 : (⟨S4x2048, .i32⟩ : BufTy).Contents (Elt F)) : (⟨S8192, .i1⟩ : BufTy).Contents (Elt F) :=
  andi (cmpi .sge (shapeCast _ x0 shapeCasts_S4x2048_S8192) (broadcastInDim S8192 ![] bcast_S_S8192 (constantI S_ 32 200000#32)))
    (cmpi .slt (shapeCast _ x0 shapeCasts_S4x2048_S8192) (broadcastInDim S8192 ![] bcast_S_S8192 (constantI S_ 32 267735#32)))

/-- Bucket 0's row numbers: token − 0 clipped to [0, 19999]. -/
def clipK_0 (x0 : (⟨S4x2048, .i32⟩ : BufTy).Contents (Elt F)) : (⟨S8192, .i32⟩ : BufTy).Contents (Elt F) :=
  minsi (broadcastInDim S8192 ![] bcast_S_S8192 (id (constantI S_ 32 19999#32)))
    (maxsi (broadcastInDim S8192 ![] bcast_S_S8192 (id (constantI S_ 32 0#32)))
      (subi (shapeCast _ x0 shapeCasts_S4x2048_S8192) (broadcastInDim S8192 ![] bcast_S_S8192 (constantI S_ 32 0#32))))
/-- Bucket 1's row numbers: token − 20000 clipped to [0, 19999]. -/
def clipK_1 (x0 : (⟨S4x2048, .i32⟩ : BufTy).Contents (Elt F)) : (⟨S8192, .i32⟩ : BufTy).Contents (Elt F) :=
  minsi (broadcastInDim S8192 ![] bcast_S_S8192 (id (constantI S_ 32 19999#32)))
    (maxsi (broadcastInDim S8192 ![] bcast_S_S8192 (id (constantI S_ 32 0#32)))
      (subi (shapeCast _ x0 shapeCasts_S4x2048_S8192) (broadcastInDim S8192 ![] bcast_S_S8192 (constantI S_ 32 20000#32))))
/-- Bucket 2's row numbers: token − 40000 clipped to [0, 159999]. -/
def clipK_2 (x0 : (⟨S4x2048, .i32⟩ : BufTy).Contents (Elt F)) : (⟨S8192, .i32⟩ : BufTy).Contents (Elt F) :=
  minsi (broadcastInDim S8192 ![] bcast_S_S8192 (id (constantI S_ 32 159999#32)))
    (maxsi (broadcastInDim S8192 ![] bcast_S_S8192 (id (constantI S_ 32 0#32)))
      (subi (shapeCast _ x0 shapeCasts_S4x2048_S8192) (broadcastInDim S8192 ![] bcast_S_S8192 (constantI S_ 32 40000#32))))
/-- Bucket 3's row numbers: token − 200000 clipped to [0, 67734]. -/
def clipK_3 (x0 : (⟨S4x2048, .i32⟩ : BufTy).Contents (Elt F)) : (⟨S8192, .i32⟩ : BufTy).Contents (Elt F) :=
  minsi (broadcastInDim S8192 ![] bcast_S_S8192 (id (constantI S_ 32 67734#32)))
    (maxsi (broadcastInDim S8192 ![] bcast_S_S8192 (id (constantI S_ 32 0#32)))
      (subi (shapeCast _ x0 shapeCasts_S4x2048_S8192) (broadcastInDim S8192 ![] bcast_S_S8192 (constantI S_ 32 200000#32))))

/-- Bucket 0's gathered block: row clip (a negative row number wrapped by 20000) of the 20000 × 1024 table, per token. -/
def gathK_0 (x0 : (⟨S4x2048, .i32⟩ : BufTy).Contents (Elt F)) (x1 : (⟨S20000x1024, .f32⟩ : BufTy).Contents (Elt F)) :
    (⟨S8192x1024, .f32⟩ : BufTy).Contents (Elt F) :=
  Host.gather gather_S20000x1024_S8192x1_S8192x1024_1_0_n_n_0_1_11024 x1
    (broadcastInDim S8192x1 ![0] bcast_S8192_S8192x1_0
      (select (cmpi .slt (clipK_0 x0) (broadcastInDim S8192 ![] bcast_S_S8192 (constantI S_ 32 0#32)))
        (addi (clipK_0 x0) (broadcastInDim S8192 ![] bcast_S_S8192 (constantI S_ 32 20000#32))) (clipK_0 x0)))
/-- Bucket 1's gathered block, from the 20000 × 256 table. -/
def gathK_1 (x0 : (⟨S4x2048, .i32⟩ : BufTy).Contents (Elt F)) (x2 : (⟨S20000x256, .f32⟩ : BufTy).Contents (Elt F)) :
    (⟨S8192x256, .f32⟩ : BufTy).Contents (Elt F) :=
  Host.gather gather_S20000x256_S8192x1_S8192x256_1_0_n_n_0_1_1256 x2
    (broadcastInDim S8192x1 ![0] bcast_S8192_S8192x1_0
      (select (cmpi .slt (clipK_1 x0) (broadcastInDim S8192 ![] bcast_S_S8192 (constantI S_ 32 0#32)))
        (addi (clipK_1 x0) (broadcastInDim S8192 ![] bcast_S_S8192 (constantI S_ 32 20000#32))) (clipK_1 x0)))
/-- Bucket 2's gathered block, from the 160000 × 64 table. -/
def gathK_2 (x0 : (⟨S4x2048, .i32⟩ : BufTy).Contents (Elt F)) (x3 : (⟨S160000x64, .f32⟩ : BufTy).Contents (Elt F)) :
    (⟨S8192x64, .f32⟩ : BufTy).Contents (Elt F) :=
  Host.gather gather_S160000x64_S8192x1_S8192x64_1_0_n_n_0_1_164 x3
    (broadcastInDim S8192x1 ![0] bcast_S8192_S8192x1_0
      (select (cmpi .slt (clipK_2 x0) (broadcastInDim S8192 ![] bcast_S_S8192 (constantI S_ 32 0#32)))
        (addi (clipK_2 x0) (broadcastInDim S8192 ![] bcast_S_S8192 (constantI S_ 32 160000#32))) (clipK_2 x0)))
/-- Bucket 3's gathered block, from the 67735 × 16 table. -/
def gathK_3 (x0 : (⟨S4x2048, .i32⟩ : BufTy).Contents (Elt F)) (x4 : (⟨S67735x16, .f32⟩ : BufTy).Contents (Elt F)) :
    (⟨S8192x16, .f32⟩ : BufTy).Contents (Elt F) :=
  Host.gather gather_S67735x16_S8192x1_S8192x16_1_0_n_n_0_1_116 x4
    (broadcastInDim S8192x1 ![0] bcast_S8192_S8192x1_0
      (select (cmpi .slt (clipK_3 x0) (broadcastInDim S8192 ![] bcast_S_S8192 (constantI S_ 32 0#32)))
        (addi (clipK_3 x0) (broadcastInDim S8192 ![] bcast_S_S8192 (constantI S_ 32 67735#32))) (clipK_3 x0)))

/-! ## The two operands as terms of masks, blocks and projection matrices -/

/-- A block with the rows whose mask is off zeroed (the mask is copied along the columns). -/
def whereK_0 (M : (⟨S8192, .i1⟩ : BufTy).Contents (Elt F)) (G : (⟨S8192x1024, .f32⟩ : BufTy).Contents (Elt F)) :
    (⟨S8192x1024, .f32⟩ : BufTy).Contents (Elt F) :=
  select (broadcastInDim S8192x1024 ![0, 1] bcast_S8192x1_S8192x1024_0_1 (broadcastInDim S8192x1 ![0] bcast_S8192_S8192x1_0 M)) G
    (broadcastInDim S8192x1024 ![] bcast_S_S8192x1024 (constant S_ .f32 0x00000000#32))
@[inherit_doc whereK_0]
def whereK_1 (M : (⟨S8192, .i1⟩ : BufTy).Contents (Elt F)) (G : (⟨S8192x256, .f32⟩ : BufTy).Contents (Elt F)) :
    (⟨S8192x256, .f32⟩ : BufTy).Contents (Elt F) :=
  select (broadcastInDim S8192x256 ![0, 1] bcast_S8192x1_S8192x256_0_1 (broadcastInDim S8192x1 ![0] bcast_S8192_S8192x1_0 M)) G
    (broadcastInDim S8192x256 ![] bcast_S_S8192x256 (constant S_ .f32 0x00000000#32))
@[inherit_doc whereK_0]
def whereK_2 (M : (⟨S8192, .i1⟩ : BufTy).Contents (Elt F)) (G : (⟨S8192x64, .f32⟩ : BufTy).Contents (Elt F)) :
    (⟨S8192x64, .f32⟩ : BufTy).Contents (Elt F) :=
  select (broadcastInDim S8192x64 ![0, 1] bcast_S8192x1_S8192x64_0_1 (broadcastInDim S8192x1 ![0] bcast_S8192_S8192x1_0 M)) G
    (broadcastInDim S8192x64 ![] bcast_S_S8192x64 (constant S_ .f32 0x00000000#32))
@[inherit_doc whereK_0]
def whereK_3 (M : (⟨S8192, .i1⟩ : BufTy).Contents (Elt F)) (G : (⟨S8192x16, .f32⟩ : BufTy).Contents (Elt F)) :
    (⟨S8192x16, .f32⟩ : BufTy).Contents (Elt F) :=
  select (broadcastInDim S8192x16 ![0, 1] bcast_S8192x1_S8192x16_0_1 (broadcastInDim S8192x1 ![0] bcast_S8192_S8192x1_0 M)) G
    (broadcastInDim S8192x16 ![] bcast_S_S8192x16 (constant S_ .f32 0x00000000#32))

/-- The left operand: the four masked blocks side by side, then 48 zero columns. -/
def aK (M0 M1 M2 M3 : (⟨S8192, .i1⟩ : BufTy).Contents (Elt F))
    (G0 : (⟨S8192x1024, .f32⟩ : BufTy).Contents (Elt F)) (G1 : (⟨S8192x256, .f32⟩ : BufTy).Contents (Elt F))
    (G2 : (⟨S8192x64, .f32⟩ : BufTy).Contents (Elt F)) (G3 : (⟨S8192x16, .f32⟩ : BufTy).Contents (Elt F)) :
    (⟨S8192x1408, .f32⟩ : BufTy).Contents (Elt F) :=
  pad S8192x1408 ![0, 0] ![0, 48] ![0, 0]
    (concatenate S8192x1360 1 [⟨S8192x1024, whereK_0 M0 G0⟩, ⟨S8192x256, whereK_1 M1 G1⟩, ⟨S8192x64, whereK_2 M2 G2⟩,
      ⟨S8192x16, whereK_3 M3 G3⟩] concatenates_S8192x1024_S8192x256_S8192x64_S8192x16_S8192x1360_d1)
    (sitofp .f32 (constantI S_ 32 0#32)) pads_S8192x1360_S8192x1408_000_0480 h_S_

/-- The right operand: the four projection matrices stacked, then 48 zero rows. -/
def bK (x5 : (⟨S1024x1024, .f32⟩ : BufTy).Contents (Elt F)) (x6 : (⟨S256x1024, .f32⟩ : BufTy).Contents (Elt F))
    (x7 : (⟨S64x1024, .f32⟩ : BufTy).Contents (Elt F)) (x8 : (⟨S16x1024, .f32⟩ : BufTy).Contents (Elt F)) :
    (⟨S1408x1024, .f32⟩ : BufTy).Contents (Elt F) :=
  pad S1408x1024 ![0, 0] ![48, 0] ![0, 0]
    (concatenate S1360x1024 0 [⟨S1024x1024, x5⟩, ⟨S256x1024, x6⟩, ⟨S64x1024, x7⟩, ⟨S16x1024, x8⟩]
      concatenates_S1024x1024_S256x1024_S64x1024_S16x1024_S1360x1024_d0)
    (sitofp .f32 (constantI S_ 32 0#32)) pads_S1360x1024_S1408x1024_0480_000 h_S_

end Cert.KernelIdeal.Hand

end
-- ==== Proof.KOperandEntry.lean ====
/-
  The two operand arrays of the kernel program's one region, when the region is entered, are the terms aK and bK
  of the argument arrays: the host lines before the region, read one after the other, compute exactly those terms.
-/
import proofs.«168319_j55327768707951_2_alg».proof.Proof.KOperandTerms

set_option maxRecDepth 8192

noncomputable section

namespace Cert.KernelIdeal.Hand

open Cert.KernelIdeal Cert.KernelIdeal.Gen
open Idealize.ShloMosaic Idealize.ShloMosaic.TcCoe
open Idealize.SL Idealize.SL.Sem
open Idealize.ShloMosaic.StableHlo

variable {F : FTy → Type} [FloatOps F]

/-! ## The lines before the region in five runs: one per bucket, then the concatenations and paddings -/
abbrev ops_0_3 : List (HloOp τ sig (Elt F)) := List.flatten [hostOps0, hostOps0_1, hostOps0_2, hostOps0_3]
abbrev ops_4_7 : List (HloOp τ sig (Elt F)) := List.flatten [hostOps0_4, hostOps0_5, hostOps0_6, hostOps0_7]
abbrev ops_8_11 : List (HloOp τ sig (Elt F)) := List.flatten [hostOps0_8, hostOps0_9, hostOps0_10, hostOps0_11]
abbrev ops_12_15 : List (HloOp τ sig (Elt F)) := List.flatten [hostOps0_12, hostOps0_13, hostOps0_14, hostOps0_15]
abbrev ops_16_19 : List (HloOp τ sig (Elt F)) := List.flatten [hostOps0_16, hostOps0_17, hostOps0_18, hostOps0_19]

theorem flatten_preOps :
    List.flatten (preOps (F := F))
      = ops_0_3 (F := F) ++ (ops_4_7 (F := F) ++ (ops_8_11 (F := F) ++ (ops_12_15 (F := F) ++ ops_16_19 (F := F)))) := by
  simp only [preOps, ops_0_3, ops_4_7, ops_8_11, ops_12_15, ops_16_19, List.flatten_cons, List.flatten_nil, List.append_nil,
    List.append_assoc]

/-- The contents when the region is entered, run by run. -/
theorem V0_runs (m : (ℓ : Loc nD τ sig) → Buf (Elt F) ℓ) (c : Dev nD) :
    V0 m c = StableHlo.after (ops_16_19 (F := F)) (StableHlo.after (ops_12_15 (F := F)) (StableHlo.after (ops_8_11 (F := F))
      (StableHlo.after (ops_4_7 (F := F)) (StableHlo.after (ops_0_3 (F := F)) (fun b => m (c, b)))))) := by
  show StableHlo.after (List.flatten (preOps (F := F))) _ = _
  rw [flatten_preOps]
  simp only [StableHlo.after_append]

/-! ## The last run: the two concatenations and the two paddings -/

/-- The left operand from the four masked blocks the earlier runs leave. -/
theorem last_v71 (W : Valuation τ sig (Elt F)) (B0 : (⟨S8192x1024, .f32⟩ : BufTy).Contents (Elt F)) (B1 : (⟨S8192x256, .f32⟩ : BufTy).Contents (Elt F))
    (B2 : (⟨S8192x64, .f32⟩ : BufTy).Contents (Elt F)) (B3 : (⟨S8192x16, .f32⟩ : BufTy).Contents (Elt F))
    (h0 : (W (Proc.devRef .tc main_v17) : (⟨S8192x1024, .f32⟩ : BufTy).Contents (Elt F)) = B0) (h1 : (W (Proc.devRef .tc main_v34) : (⟨S8192x256, .f32⟩ : BufTy).Contents (Elt F)) = B1)
    (h2 : (W (Proc.devRef .tc main_v51) : (⟨S8192x64, .f32⟩ : BufTy).Contents (Elt F)) = B2) (h3 : (W (Proc.devRef .tc main_v68) : (⟨S8192x16, .f32⟩ : BufTy).Contents (Elt F)) = B3) :
    (StableHlo.after (ops_16_19 (F := F)) W (Proc.devRef .tc main_v71) : (⟨S8192x1408, .f32⟩ : BufTy).Contents (Elt F))
      = pad S8192x1408 ![0, 0] ![0, 48] ![0, 0]
          (concatenate S8192x1360 1 [⟨S8192x1024, B0⟩, ⟨S8192x256, B1⟩, ⟨S8192x64, B2⟩, ⟨S8192x16, B3⟩]
            concatenates_S8192x1024_S8192x256_S8192x64_S8192x16_S8192x1360_d1)
          (sitofp .f32 (constantI S_ 32 0#32)) pads_S8192x1360_S8192x1408_000_0480 h_S_ := by
  subst h0 h1 h2 h3
  simp only [ops_16_19, Gen.hostOps0_16, Gen.hostOps0_17, Gen.hostOps0_18, Gen.hostOps0_19, List.flatten_cons, List.flatten_nil, List.append_nil, List.cons_append, List.nil_append]
  after_results
  rfl

/-! ## The first run: the tokens, and bucket 0's masked block -/

/-- The first run leaves the flattened tokens. -/
theorem first_v0 (W : Valuation τ sig (Elt F)) (x0 : (⟨S4x2048, .i32⟩ : BufTy).Contents (Elt F))
    (h0 : (W (Proc.devRef .tc main_arg0) : (⟨S4x2048, .i32⟩ : BufTy).Contents (Elt F)) = x0) :
    (StableHlo.after (ops_0_3 (F := F)) W (Proc.devRef .tc main_v0) : (⟨S8192, .i32⟩ : BufTy).Contents (Elt F)) = flatK x0 := by
  subst h0
  simp only [ops_0_3, Gen.hostOps0, Gen.hostOps0_1, Gen.hostOps0_2, Gen.hostOps0_3, List.flatten_cons, List.flatten_nil, List.append_nil, List.cons_append, List.nil_append]
  after_results_simp
  rfl

/-- Bucket 0's masked block. -/
theorem run0_v17 (W : Valuation τ sig (Elt F)) (x0 : (⟨S4x2048, .i32⟩ : BufTy).Contents (Elt F)) (x1 : (⟨S20000x1024, .f32⟩ : BufTy).Contents (Elt F))
    (h0 : (W (Proc.devRef .tc main_arg0) : (⟨S4x2048, .i32⟩ : BufTy).Contents (Elt F)) = x0)
    (h1 : (W (Proc.devRef .tc main_arg1) : (⟨S20000x1024, .f32⟩ : BufTy).Contents (Elt F)) = x1) :
    (StableHlo.after (ops_0_3 (F := F)) W (Proc.devRef .tc main_v17) : (⟨S8192x1024, .f32⟩ : BufTy).Contents (Elt F))
      = whereK_0 (maskK_0 x0) (gathK_0 x0 x1) := by
  subst h0 h1
  simp only [ops_0_3, Gen.hostOps0, Gen.hostOps0_1, Gen.hostOps0_2, Gen.hostOps0_3, List.flatten_cons, List.flatten_nil, List.append_nil, List.cons_append, List.nil_append]
  after_results_simp
  rfl

/-! ## Buckets 1 to 3: each run reads the tokens the first run left and its own table -/

/-- Bucket 1's masked block. -/
theorem run1_v34 (W : Valuation τ sig (Elt F)) (x0 : (⟨S4x2048, .i32⟩ : BufTy).Contents (Elt F)) (x2 : (⟨S20000x256, .f32⟩ : BufTy).Contents (Elt F))
    (hf : (W (Proc.devRef .tc main_v0) : (⟨S8192, .i32⟩ : BufTy).Contents (Elt F)) = flatK x0)
    (ha : (W (Proc.devRef .tc main_arg2) : (⟨S20000x256, .f32⟩ : BufTy).Contents (Elt F)) = x2) :
    (StableHlo.after (ops_4_7 (F := F)) W (Proc.devRef .tc main_v34) : (⟨S8192x256, .f32⟩ : BufTy).Contents (Elt F))
      = whereK_1 (maskK_1 x0) (gathK_1 x0 x2) := by
  subst ha
  simp only [ops_4_7, Gen.hostOps0_4, Gen.hostOps0_5, Gen.hostOps0_6, Gen.hostOps0_7, List.flatten_cons, List.flatten_nil, List.append_nil, List.cons_append, List.nil_append]
  after_results_simp
  rw [hf]
  rfl

/-- Bucket 2's masked block. -/
theorem run2_v51 (W : Valuation τ sig (Elt F)) (x0 : (⟨S4x2048, .i32⟩ : BufTy).Contents (Elt F)) (x3 : (⟨S160000x64, .f32⟩ : BufTy).Contents (Elt F))
    (hf : (W (Proc.devRef .tc main_v0) : (⟨S8192, .i32⟩ : BufTy).Contents (Elt F)) = flatK x0)
    (ha : (W (Proc.devRef .tc main_arg3) : (⟨S160000x64, .f32⟩ : BufTy).Contents (Elt F)) = x3) :
    (StableHlo.after (ops_8_11 (F := F)) W (Proc.devRef .tc main_v51) : (⟨S8192x64, .f32⟩ : BufTy).Contents (Elt F))
      = whereK_2 (maskK_2 x0) (gathK_2 x0 x3) := by
  subst ha
  simp only [ops_8_11, Gen.hostOps0_8, Gen.hostOps0_9, Gen.hostOps0_10, Gen.hostOps0_11, List.flatten_cons, List.flatten_nil, List.append_nil, List.cons_append, List.nil_append]
  after_results_simp
  rw [hf]
  rfl

/-- Bucket 3's masked block. -/
theorem run3_v68 (W : Valuation τ sig (Elt F)) (x0 : (⟨S4x2048, .i32⟩ : BufTy).Contents (Elt F)) (x4 : (⟨S67735x16, .f32⟩ : BufTy).Contents (Elt F))
    (hf : (W (Proc.devRef .tc main_v0) : (⟨S8192, .i32⟩ : BufTy).Contents (Elt F)) = flatK x0)
    (ha : (W (Proc.devRef .tc main_arg4) : (⟨S67735x16, .f32⟩ : BufTy).Contents (Elt F)) = x4) :
    (StableHlo.after (ops_12_15 (F := F)) W (Proc.devRef .tc main_v68) : (⟨S8192x16, .f32⟩ : BufTy).Contents (Elt F))
      = whereK_3 (maskK_3 x0) (gathK_3 x0 x4) := by
  subst ha
  simp only [ops_12_15, Gen.hostOps0_12, Gen.hostOps0_13, Gen.hostOps0_14, Gen.hostOps0_15, List.flatten_cons, List.flatten_nil, List.append_nil, List.cons_append, List.nil_append]
  after_results_simp
  rw [hf]
  rfl

/-! ## What a run does not write it leaves -/
theorem keep_0_3_arg2 (W : Valuation τ sig (Elt F)) :
    StableHlo.after (ops_0_3 (F := F)) W (Proc.devRef .tc main_arg2) = W (Proc.devRef .tc main_arg2) := by
  simp only [ops_0_3, Gen.hostOps0, Gen.hostOps0_1, Gen.hostOps0_2, Gen.hostOps0_3, List.flatten_cons, List.flatten_nil, List.append_nil, List.cons_append, List.nil_append]
  after_results_simp
theorem keep_0_3_arg3 (W : Valuation τ sig (Elt F)) :
    StableHlo.after (ops_0_3 (F := F)) W (Proc.devRef .tc main_arg3) = W (Proc.devRef .tc main_arg3) := by
  simp only [ops_0_3, Gen.hostOps0, Gen.hostOps0_1, Gen.hostOps0_2, Gen.hostOps0_3, List.flatten_cons, List.flatten_nil, List.append_nil, List.cons_append, List.nil_append]
  after_results_simp
theorem keep_0_3_arg4 (W : Valuation τ sig (Elt F)) :
    StableHlo.after (ops_0_3 (F := F)) W (Proc.devRef .tc main_arg4) = W (Proc.devRef .tc main_arg4) := by
  simp only [ops_0_3, Gen.hostOps0, Gen.hostOps0_1, Gen.hostOps0_2, Gen.hostOps0_3, List.flatten_cons, List.flatten_nil, List.append_nil, List.cons_append, List.nil_append]
  after_results_simp
theorem keep_4_7_v0 (W : Valuation τ sig (Elt F)) :
    StableHlo.after (ops_4_7 (F := F)) W (Proc.devRef .tc main_v0) = W (Proc.devRef .tc main_v0) := by
  simp only [ops_4_7, Gen.hostOps0_4, Gen.hostOps0_5, Gen.hostOps0_6, Gen.hostOps0_7, List.flatten_cons, List.flatten_nil, List.append_nil, List.cons_append, List.nil_append]
  after_results_simp
theorem keep_4_7_arg3 (W : Valuation τ sig (Elt F)) :
    StableHlo.after (ops_4_7 (F := F)) W (Proc.devRef .tc main_arg3) = W (Proc.devRef .tc main_arg3) := by
  simp only [ops_4_7, Gen.hostOps0_4, Gen.hostOps0_5, Gen.hostOps0_6, Gen.hostOps0_7, List.flatten_cons, List.flatten_nil, List.append_nil, List.cons_append, List.nil_append]
  after_results_simp
theorem keep_4_7_arg4 (W : Valuation τ sig (Elt F)) :
    StableHlo.after (ops_4_7 (F := F)) W (Proc.devRef .tc main_arg4) = W (Proc.devRef .tc main_arg4) := by
  simp only [ops_4_7, Gen.hostOps0_4, Gen.hostOps0_5, Gen.hostOps0_6, Gen.hostOps0_7, List.flatten_cons, List.flatten_nil, List.append_nil, List.cons_append, List.nil_append]
  after_results_simp
theorem keep_4_7_v17 (W : Valuation τ sig (Elt F)) :
    StableHlo.after (ops_4_7 (F := F)) W (Proc.devRef .tc main_v17) = W (Proc.devRef .tc main_v17) := by
  simp only [ops_4_7, Gen.hostOps0_4, Gen.hostOps0_5, Gen.hostOps0_6, Gen.hostOps0_7, List.flatten_cons, List.flatten_nil, List.append_nil, List.cons_append, List.nil_append]
  after_results_simp
theorem keep_8_11_v0 (W : Valuation τ sig (Elt F)) :
    StableHlo.after (ops_8_11 (F := F)) W (Proc.devRef .tc main_v0) = W (Proc.devRef .tc main_v0) := by
  simp only [ops_8_11, Gen.hostOps0_8, Gen.hostOps0_9, Gen.hostOps0_10, Gen.hostOps0_11, List.flatten_cons, List.flatten_nil, List.append_nil, List.cons_append, List.nil_append]
  after_results_simp
theorem keep_8_11_arg4 (W : Valuation τ sig (Elt F)) :
    StableHlo.after (ops_8_11 (F := F)) W (Proc.devRef .tc main_arg4) = W (Proc.devRef .tc main_arg4) := by
  simp only [ops_8_11, Gen.hostOps0_8, Gen.hostOps0_9, Gen.hostOps0_10, Gen.hostOps0_11, List.flatten_cons, List.flatten_nil, List.append_nil, List.cons_append, List.nil_append]
  after_results_simp
theorem keep_8_11_v17 (W : Valuation τ sig (Elt F)) :
    StableHlo.after (ops_8_11 (F := F)) W (Proc.devRef .tc main_v17) = W (Proc.devRef .tc main_v17) := by
  simp only [ops_8_11, Gen.hostOps0_8, Gen.hostOps0_9, Gen.hostOps0_10, Gen.hostOps0_11, List.flatten_cons, List.flatten_nil, List.append_nil, List.cons_append, List.nil_append]
  after_results_simp
theorem keep_8_11_v34 (W : Valuation τ sig (Elt F)) :
    StableHlo.after (ops_8_11 (F := F)) W (Proc.devRef .tc main_v34) = W (Proc.devRef .tc main_v34) := by
  simp only [ops_8_11, Gen.hostOps0_8, Gen.hostOps0_9, Gen.hostOps0_10, Gen.hostOps0_11, List.flatten_cons, List.flatten_nil, List.append_nil, List.cons_append, List.nil_append]
  after_results_simp
theorem keep_12_15_v17 (W : Valuation τ sig (Elt F)) :
    StableHlo.after (ops_12_15 (F := F)) W (Proc.devRef .tc main_v17) = W (Proc.devRef .tc main_v17) := by
  simp only [ops_12_15, Gen.hostOps0_12, Gen.hostOps0_13, Gen.hostOps0_14, Gen.hostOps0_15, List.flatten_cons, List.flatten_nil, List.append_nil, List.cons_append, List.nil_append]
  after_results_simp
theorem keep_12_15_v34 (W : Valuation τ sig (Elt F)) :
    StableHlo.after (ops_12_15 (F := F)) W (Proc.devRef .tc main_v34) = W (Proc.devRef .tc main_v34) := by
  simp only [ops_12_15, Gen.hostOps0_12, Gen.hostOps0_13, Gen.hostOps0_14, Gen.hostOps0_15, List.flatten_cons, List.flatten_nil, List.append_nil, List.cons_append, List.nil_append]
  after_results_simp
theorem keep_12_15_v51 (W : Valuation τ sig (Elt F)) :
    StableHlo.after (ops_12_15 (F := F)) W (Proc.devRef .tc main_v51) = W (Proc.devRef .tc main_v51) := by
  simp only [ops_12_15, Gen.hostOps0_12, Gen.hostOps0_13, Gen.hostOps0_14, Gen.hostOps0_15, List.flatten_cons, List.flatten_nil, List.append_nil, List.cons_append, List.nil_append]
  after_results_simp

/-! ## The two operands when the region is entered -/

/-- The left operand when the region is entered: the four masked blocks side by side, then 48 zero columns. -/
theorem entry_v71 (m : (ℓ : Loc nD τ sig) → Buf (Elt F) ℓ) (c : Dev nD) :
    (V m c main_v71 : (⟨S8192x1408, .f32⟩ : BufTy).Contents (Elt F))
      = aK (maskK_0 (m ((c.tc : Thread nD τ).loc main_arg0))) (maskK_1 (m ((c.tc : Thread nD τ).loc main_arg0))) (maskK_2 (m ((c.tc : Thread nD τ).loc main_arg0))) (maskK_3 (m ((c.tc : Thread nD τ).loc main_arg0)))
          (gathK_0 (m ((c.tc : Thread nD τ).loc main_arg0)) (m ((c.tc : Thread nD τ).loc main_arg1))) (gathK_1 (m ((c.tc : Thread nD τ).loc main_arg0)) (m ((c.tc : Thread nD τ).loc main_arg2))) (gathK_2 (m ((c.tc : Thread nD τ).loc main_arg0)) (m ((c.tc : Thread nD τ).loc main_arg3))) (gathK_3 (m ((c.tc : Thread nD τ).loc main_arg0)) (m ((c.tc : Thread nD τ).loc main_arg4))) := by
  have hf1 : ((StableHlo.after (ops_0_3 (F := F)) (fun b => m (c, b))) (Proc.devRef .tc main_v0) : (⟨S8192, .i32⟩ : BufTy).Contents (Elt F)) = flatK (m ((c.tc : Thread nD τ).loc main_arg0)) := first_v0 _ _ rfl
  have hf2 : ((StableHlo.after (ops_4_7 (F := F)) (StableHlo.after (ops_0_3 (F := F)) (fun b => m (c, b)))) (Proc.devRef .tc main_v0) : (⟨S8192, .i32⟩ : BufTy).Contents (Elt F)) = flatK (m ((c.tc : Thread nD τ).loc main_arg0)) := (keep_4_7_v0 _).trans hf1
  have hf3 : ((StableHlo.after (ops_8_11 (F := F)) (StableHlo.after (ops_4_7 (F := F)) (StableHlo.after (ops_0_3 (F := F)) (fun b => m (c, b))))) (Proc.devRef .tc main_v0) : (⟨S8192, .i32⟩ : BufTy).Contents (Elt F)) = flatK (m ((c.tc : Thread nD τ).loc main_arg0)) := (keep_8_11_v0 _).trans hf2
  have ha2 : ((StableHlo.after (ops_0_3 (F := F)) (fun b => m (c, b))) (Proc.devRef .tc main_arg2) : (⟨S20000x256, .f32⟩ : BufTy).Contents (Elt F)) = (m ((c.tc : Thread nD τ).loc main_arg2)) := keep_0_3_arg2 _
  have ha3 : ((StableHlo.after (ops_4_7 (F := F)) (StableHlo.after (ops_0_3 (F := F)) (fun b => m (c, b)))) (Proc.devRef .tc main_arg3) : (⟨S160000x64, .f32⟩ : BufTy).Contents (Elt F)) = (m ((c.tc : Thread nD τ).loc main_arg3)) := (keep_4_7_arg3 _).trans (keep_0_3_arg3 _)
  have ha4 : ((StableHlo.after (ops_8_11 (F := F)) (StableHlo.after (ops_4_7 (F := F)) (StableHlo.after (ops_0_3 (F := F)) (fun b => m (c, b))))) (Proc.devRef .tc main_arg4) : (⟨S67735x16, .f32⟩ : BufTy).Contents (Elt F)) = (m ((c.tc : Thread nD τ).loc main_arg4)) :=
    (keep_8_11_arg4 _).trans ((keep_4_7_arg4 _).trans (keep_0_3_arg4 _))
  have h17 : ((StableHlo.after (ops_12_15 (F := F)) (StableHlo.after (ops_8_11 (F := F)) (StableHlo.after (ops_4_7 (F := F)) (StableHlo.after (ops_0_3 (F := F)) (fun b => m (c, b)))))) (Proc.devRef .tc main_v17) : (⟨S8192x1024, .f32⟩ : BufTy).Contents (Elt F)) = (whereK_0 (maskK_0 (m ((c.tc : Thread nD τ).loc main_arg0))) (gathK_0 (m ((c.tc : Thread nD τ).loc main_arg0)) (m ((c.tc : Thread nD τ).loc main_arg1)))) :=
    (keep_12_15_v17 _).trans ((keep_8_11_v17 _).trans ((keep_4_7_v17 _).trans (run0_v17 _ _ _ rfl rfl)))
  have h34 : ((StableHlo.after (ops_12_15 (F := F)) (StableHlo.after (ops_8_11 (F := F)) (StableHlo.after (ops_4_7 (F := F)) (StableHlo.after (ops_0_3 (F := F)) (fun b => m (c, b)))))) (Proc.devRef .tc main_v34) : (⟨S8192x256, .f32⟩ : BufTy).Contents (Elt F)) = (whereK_1 (maskK_1 (m ((c.tc : Thread nD τ).loc main_arg0))) (gathK_1 (m ((c.tc : Thread nD τ).loc main_arg0)) (m ((c.tc : Thread nD τ).loc main_arg2)))) :=
    (keep_12_15_v34 _).trans ((keep_8_11_v34 _).trans (run1_v34 _ _ _ hf1 ha2))
  have h51 : ((StableHlo.after (ops_12_15 (F := F)) (StableHlo.after (ops_8_11 (F := F)) (StableHlo.after (ops_4_7 (F := F)) (StableHlo.after (ops_0_3 (F := F)) (fun b => m (c, b)))))) (Proc.devRef .tc main_v51) : (⟨S8192x64, .f32⟩ : BufTy).Contents (Elt F)) = (whereK_2 (maskK_2 (m ((c.tc : Thread nD τ).loc main_arg0))) (gathK_2 (m ((c.tc : Thread nD τ).loc main_arg0)) (m ((c.tc : Thread nD τ).loc main_arg3)))) :=
    (keep_12_15_v51 _).trans (run2_v51 _ _ _ hf2 ha3)
  have h68 : ((StableHlo.after (ops_12_15 (F := F)) (StableHlo.after (ops_8_11 (F := F)) (StableHlo.after (ops_4_7 (F := F)) (StableHlo.after (ops_0_3 (F := F)) (fun b => m (c, b)))))) (Proc.devRef .tc main_v68) : (⟨S8192x16, .f32⟩ : BufTy).Contents (Elt F)) = (whereK_3 (maskK_3 (m ((c.tc : Thread nD τ).loc main_arg0))) (gathK_3 (m ((c.tc : Thread nD τ).loc main_arg0)) (m ((c.tc : Thread nD τ).loc main_arg4)))) := run3_v68 _ _ _ hf3 ha4
  exact (congrFun (V0_runs m c) (Proc.devRef .tc main_v71)).trans (last_v71 _ _ _ _ _ h17 h34 h51 h68)

set_option maxHeartbeats 4000000 in
/-- The right operand when the region is entered: the four projection matrices stacked, then 48 zero rows.
    Of the lines before the region only the second concatenation and the last padding reach this array. -/
theorem entry_v72 (m : (ℓ : Loc nD τ sig) → Buf (Elt F) ℓ) (c : Dev nD) :
    (V m c main_v72 : (⟨S1408x1024, .f32⟩ : BufTy).Contents (Elt F))
      = bK (m ((c.tc : Thread nD τ).loc main_arg5)) (m ((c.tc : Thread nD τ).loc main_arg6))
          (m ((c.tc : Thread nD τ).loc main_arg7)) (m ((c.tc : Thread nD τ).loc main_arg8)) := by
  dsimp only [V, V0, preOps]
  simp only [Gen.hostOps0, Gen.hostOps0_1, Gen.hostOps0_2, Gen.hostOps0_3, Gen.hostOps0_4, Gen.hostOps0_5, Gen.hostOps0_6, Gen.hostOps0_7, Gen.hostOps0_8, Gen.hostOps0_9, Gen.hostOps0_10, Gen.hostOps0_11, Gen.hostOps0_12, Gen.hostOps0_13, Gen.hostOps0_14, Gen.hostOps0_15, Gen.hostOps0_16, Gen.hostOps0_17, Gen.hostOps0_18, Gen.hostOps0_19, List.flatten_cons, List.flatten_nil, List.append_nil, List.cons_append, List.nil_append]
  after_results_simp
  rfl

end Cert.KernelIdeal.Hand

end
-- ==== Proof.RefSide.lean ====
/-
  The reference program's result read at an index: the value before the final reshape, at row r and
  column e, is the sum over the four buckets of the masked product of the gathered rows with the bucket's
  projection, times the literal 32.0.  The masks and the gathers stay the vector-level terms they are.
-/
import proofs.«168319_j55327768707951_2_alg».proof.Defs
import proofs.«168319_j55327768707951_2_alg».proof.Proof.Gen.ReferenceIdeal.Run
import proofs.«168319_j55327768707951_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx

/-! ## Index equations: the composed index functions at `ix2 r e` are `ix1` / `ix2` of coordinates -/

theorem lidx17_ix2 (r : Fin 8192) (e k : Fin 1024) : lidx_main_v17 (ix2 r e) k = ix2 r k := by
  funext a; match a with | ⟨0, _⟩ => rfl | ⟨1, _⟩ => rfl
theorem ridx17_ix2 (r : Fin 8192) (e k : Fin 1024) : ridx_main_v17 (ix2 r e) k = ix2 k e := by
  funext a; match a with | ⟨0, _⟩ => rfl | ⟨1, _⟩ => rfl
theorem lidx36_ix2 (r : Fin 8192) (e : Fin 1024) (k : Fin 256) : lidx_main_v36 (ix2 r e) k = ix2 r k := by
  funext a; match a with | ⟨0, _⟩ => rfl | ⟨1, _⟩ => rfl
theorem ridx36_ix2 (r : Fin 8192) (e : Fin 1024) (k : Fin 256) : ridx_main_v36 (ix2 r e) k = ix2 k e := by
  funext a; match a with | ⟨0, _⟩ => rfl | ⟨1, _⟩ => rfl
theorem lidx55_ix2 (r : Fin 8192) (e : Fin 1024) (k : Fin 64) : lidx_main_v55 (ix2 r e) k = ix2 r k := by
  funext a; match a with | ⟨0, _⟩ => rfl | ⟨1, _⟩ => rfl
theorem ridx55_ix2 (r : Fin 8192) (e : Fin 1024) (k : Fin 64) : ridx_main_v55 (ix2 r e) k = ix2 k e := by
  funext a; match a with | ⟨0, _⟩ => rfl | ⟨1, _⟩ => rfl
theorem lidx74_ix2 (r : Fin 8192) (e : Fin 1024) (k : Fin 16) : lidx_main_v74 (ix2 r e) k = ix2 r k := by
  funext a; match a with | ⟨0, _⟩ => rfl | ⟨1, _⟩ => rfl
theorem ridx74_ix2 (r : Fin 8192) (e : Fin 1024) (k : Fin 16) : ridx_main_v74 (ix2 r e) k = ix2 k e := by
  funext a; match a with | ⟨0, _⟩ => rfl | ⟨1, _⟩ => rfl

/-- The mask's two broadcasts ([8192] → [8192,1] → [8192,1024]) read row `r` of the mask vector. -/
theorem midx1_ix2 (r : Fin 8192) (e : Fin 1024) : idx_main_v18 (idx_main_call1_v0 (ix2 r e)) = ix1 r := by
  funext a; match a with | ⟨0, _⟩ => rfl
theorem midx3_ix2 (r : Fin 8192) (e : Fin 1024) : idx_main_v37 (idx_main_call3_v0 (ix2 r e)) = ix1 r := by
  funext a; match a with | ⟨0, _⟩ => rfl
theorem midx5_ix2 (r : Fin 8192) (e : Fin 1024) : idx_main_v56 (idx_main_call5_v0 (ix2 r e)) = ix1 r := by
  funext a; match a with | ⟨0, _⟩ => rfl
theorem midx7_ix2 (r : Fin 8192) (e : Fin 1024) : idx_main_v75 (idx_main_call7_v0 (ix2 r e)) = ix1 r := by
  funext a; match a with | ⟨0, _⟩ => rfl

/-! ## One bucket: where(mask[:, None], gathered · projection, 0) at row r, column e -/

theorem where0_apply (x0 : (⟨S4x2048, .i32⟩ : BufTy).Contents (Elt Ideal)) (x1 : (⟨S20000x1024, .f32⟩ : BufTy).Contents (Elt Ideal)) (x5 : (⟨S1024x1024, .f32⟩ : BufTy).Contents (Elt Ideal)) (r : Fin 8192) (e : Fin 1024) :
    val_main_v19 (F := Ideal) x0 x1 x5 (ix2 r e)
      = Scalar.select (val_main_v6 (F := Ideal) x0 (ix1 r))
          (∑ k : Fin 1024, val_main_v16 (F := Ideal) x0 x1 (ix2 r k) * x5 (ix2 k e)) (0 : EReal) := by
  rw [val_main_v19_apply, val_main_call1_v0_apply, val_main_v18_apply, val_main_v17_apply, val_main_call1_v1_apply, val_main_cst_6_apply]
  simp only [lidx17_ix2, ridx17_ix2, midx1_ix2, Ideal.ofBits_def, Ideal.ofBits_zero_f32]

theorem where1_apply (x0 : (⟨S4x2048, .i32⟩ : BufTy).Contents (Elt Ideal)) (x2 : (⟨S20000x256, .f32⟩ : BufTy).Contents (Elt Ideal)) (x6 : (⟨S256x1024, .f32⟩ : BufTy).Contents (Elt Ideal)) (r : Fin 8192) (e : Fin 1024) :
    val_main_v38 (F := Ideal) x0 x2 x6 (ix2 r e)
      = Scalar.select (val_main_v25 (F := Ideal) x0 (ix1 r))
          (∑ k : Fin 256, val_main_v35 (F := Ideal) x0 x2 (ix2 r k) * x6 (ix2 k e)) (0 : EReal) := by
  rw [val_main_v38_apply, val_main_call3_v0_apply, val_main_v37_apply, val_main_v36_apply, val_main_call3_v1_apply, val_main_cst_14_apply]
  simp only [lidx36_ix2, ridx36_ix2, midx3_ix2, Ideal.ofBits_def, Ideal.ofBits_zero_f32]

theorem where2_apply (x0 : (⟨S4x2048, .i32⟩ : BufTy).Contents (Elt Ideal)) (x3 : (⟨S160000x64, .f32⟩ : BufTy).Contents (Elt Ideal)) (x7 : (⟨S64x1024, .f32⟩ : BufTy).Contents (Elt Ideal)) (r : Fin 8192) (e : Fin 1024) :
    val_main_v57 (F := Ideal) x0 x3 x7 (ix2 r e)
      = Scalar.select (val_main_v44 (F := Ideal) x0 (ix1 r))
          (∑ k : Fin 64, val_main_v54 (F := Ideal) x0 x3 (ix2 r k) * x7 (ix2 k e)) (0 : EReal) := by
  rw [val_main_v57_apply, val_main_call5_v0_apply, val_main_v56_apply, val_main_v55_apply, val_main_call5_v1_apply, val_main_cst_22_apply]
  simp only [lidx55_ix2, ridx55_ix2, midx5_ix2, Ideal.ofBits_def, Ideal.ofBits_zero_f32]

theorem where3_apply (x0 : (⟨S4x2048, .i32⟩ : BufTy).Contents (Elt Ideal)) (x4 : (⟨S67735x16, .f32⟩ : BufTy).Contents (Elt Ideal)) (x8 : (⟨S16x1024, .f32⟩ : BufTy).Contents (Elt Ideal)) (r : Fin 8192) (e : Fin 1024) :
    val_main_v76 (F := Ideal) x0 x4 x8 (ix2 r e)
      = Scalar.select (val_main_v63 (F := Ideal) x0 (ix1 r))
          (∑ k : Fin 16, val_main_v73 (F := Ideal) x0 x4 (ix2 r k) * x8 (ix2 k e)) (0 : EReal) := by
  rw [val_main_v76_apply, val_main_call7_v0_apply, val_main_v75_apply, val_main_v74_apply, val_main_call7_v1_apply, val_main_cst_30_apply]
  simp only [lidx74_ix2, ridx74_ix2, midx7_ix2, Ideal.ofBits_def, Ideal.ofBits_zero_f32]

/-! ## The accumulated sum times 32.0 -/

theorem val_main_v79_ix2 (x0 : (⟨S4x2048, .i32⟩ : BufTy).Contents (Elt Ideal)) (x1 : (⟨S20000x1024, .f32⟩ : BufTy).Contents (Elt Ideal)) (x2 : (⟨S20000x256, .f32⟩ : BufTy).Contents (Elt Ideal)) (x3 : (⟨S160000x64, .f32⟩ : BufTy).Contents (Elt Ideal)) (x4 : (⟨S67735x16, .f32⟩ : BufTy).Contents (Elt Ideal)) (x5 : (⟨S1024x1024, .f32⟩ : BufTy).Contents (Elt Ideal)) (x6 : (⟨S256x1024, .f32⟩ : BufTy).Contents (Elt Ideal)) (x7 : (⟨S64x1024, .f32⟩ : BufTy).Contents (Elt Ideal)) (x8 : (⟨S16x1024, .f32⟩ : BufTy).Contents (Elt Ideal)) (r : Fin 8192) (e : Fin 1024) :
    val_main_v79 (F := Ideal) x0 x1 x2 x3 x4 x5 x6 x7 x8 (ix2 r e)
      = (((((0 : EReal)
          + Scalar.select (val_main_v6 (F := Ideal) x0 (ix1 r))
          (∑ k : Fin 1024, val_main_v16 (F := Ideal) x0 x1 (ix2 r k) * x5 (ix2 k e)) (0 : EReal))
          + Scalar.select (val_main_v25 (F := Ideal) x0 (ix1 r))
          (∑ k : Fin 256, val_main_v35 (F := Ideal) x0 x2 (ix2 r k) * x6 (ix2 k e)) (0 : EReal))
          + Scalar.select (val_main_v44 (F := Ideal) x0 (ix1 r))
          (∑ k : Fin 64, val_main_v54 (F := Ideal) x0 x3 (ix2 r k) * x7 (ix2 k e)) (0 : EReal))
          + Scalar.select (val_main_v63 (F := Ideal) x0 (ix1 r))
          (∑ k : Fin 16, val_main_v73 (F := Ideal) x0 x4 (ix2 r k) * x8 (ix2 k e)) (0 : EReal))
        * Ideal.ofBits .f32 0x42000000#32 := by
  rw [val_main_v79_apply, val_main_v77_apply, val_main_v58_apply, val_main_v39_apply, val_main_v20_apply,
    val_main_v1_apply, val_main_cst_apply, val_main_v78_apply, val_main_cst_31_apply,
    where0_apply, where1_apply, where2_apply, where3_apply]
  simp only [Ideal.addf_def, Ideal.mulf_def, Ideal.ofBits_def, Ideal.ofBits_zero_f32]

/-- The same with the initial zero absorbed. -/
theorem val_main_v79_ix2' (x0 : (⟨S4x2048, .i32⟩ : BufTy).Contents (Elt Ideal)) (x1 : (⟨S20000x1024, .f32⟩ : BufTy).Contents (Elt Ideal)) (x2 : (⟨S20000x256, .f32⟩ : BufTy).Contents (Elt Ideal)) (x3 : (⟨S160000x64, .f32⟩ : BufTy).Contents (Elt Ideal)) (x4 : (⟨S67735x16, .f32⟩ : BufTy).Contents (Elt Ideal)) (x5 : (⟨S1024x1024, .f32⟩ : BufTy).Contents (Elt Ideal)) (x6 : (⟨S256x1024, .f32⟩ : BufTy).Contents (Elt Ideal)) (x7 : (⟨S64x1024, .f32⟩ : BufTy).Contents (Elt Ideal)) (x8 : (⟨S16x1024, .f32⟩ : BufTy).Contents (Elt Ideal)) (r : Fin 8192) (e : Fin 1024) :
    val_main_v79 (F := Ideal) x0 x1 x2 x3 x4 x5 x6 x7 x8 (ix2 r e)
      = (((Scalar.select (val_main_v6 (F := Ideal) x0 (ix1 r))
          (∑ k : Fin 1024, val_main_v16 (F := Ideal) x0 x1 (ix2 r k) * x5 (ix2 k e)) (0 : EReal)
          + Scalar.select (val_main_v25 (F := Ideal) x0 (ix1 r))
          (∑ k : Fin 256, val_main_v35 (F := Ideal) x0 x2 (ix2 r k) * x6 (ix2 k e)) (0 : EReal))
          + Scalar.select (val_main_v44 (F := Ideal) x0 (ix1 r))
          (∑ k : Fin 64, val_main_v54 (F := Ideal) x0 x3 (ix2 r k) * x7 (ix2 k e)) (0 : EReal))
          + Scalar.select (val_main_v63 (F := Ideal) x0 (ix1 r))
          (∑ k : Fin 16, val_main_v73 (F := Ideal) x0 x4 (ix2 r k) * x8 (ix2 k e)) (0 : EReal))
        * Ideal.ofBits .f32 0x42000000#32 := by
  rw [val_main_v79_ix2, zero_add]

/-! ## The run's result is the final reshape of that value -/

section Result
open Idealize.ShloMosaic.TcCoe Idealize.SL.Sem Idealize.ShloMosaic.StableHlo

theorem res_main_v80_eq_shapeCast (m : (ℓ : Loc nD τ sig) → Buf (Elt Ideal) ℓ) (c : Dev nD) :
    Cert.ReferenceIdeal.Value.res_main_v80 m c
      = shapeCast _ (val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          shapeCasts_S8192x1024_S4x2048x1024 := by
  rw [val_main_v80_eq]; rfl

end Result

/-! ## The result at row (a, b), column e is the value at flat row a * 2048 + b -/

theorem idx80_ix3 (a : Fin 4) (b : Fin 2048) (e : Fin 1024) :
    idx_main_v80 (ix3 a b e)
      = ix2 (⟨a.val * 2048 + b.val, by have := a.isLt; have := b.isLt; omega⟩ : Fin 8192) e := by
  have ha := a.isLt
  have hb := b.isLt
  have he := e.isLt
  funext d
  match d with
  | ⟨0, _⟩ => exact Fin.ext (by show ((a.val * 2048 + b.val) * 1024 + e.val) / 1024 = a.val * 2048 + b.val; omega)
  | ⟨1, _⟩ => exact Fin.ext (by show ((a.val * 2048 + b.val) * 1024 + e.val) % 1024 = e.val; omega)

section ResultAt
open Idealize.ShloMosaic.TcCoe Idealize.SL.Sem Idealize.ShloMosaic.StableHlo

theorem res_main_v80_ix3 (m : (ℓ : Loc nD τ sig) → Buf (Elt Ideal) ℓ) (c : Dev nD)
    (a : Fin 4) (b : Fin 2048) (e : Fin 1024) :
    Cert.ReferenceIdeal.Value.res_main_v80 m c (ix3 a b e)
      = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
          (ix2 (⟨a.val * 2048 + b.val, by have := a.isLt; have := b.isLt; omega⟩ : Fin 8192) e) := by
  rw [val_main_v80_eq, val_main_v80_apply, idx80_ix3]

end ResultAt

end Cert.ReferenceIdeal.RefValue

end
-- ==== Proof.KOperandRead.lean ====
/-
  The region's two operand arrays read at an index, on the extended reals.

  The left operand (8192 × 1408): column k < 1024 of row r is bucket 0's gathered entry (r, k) where bucket 0's mask is
  on at r, else 0; columns 1024 … 1279 likewise from bucket 1, 1280 … 1343 from bucket 2, 1344 … 1359 from bucket 3;
  columns 1360 … 1407 are 0.  The right operand (1408 × 1024): rows 0 … 1023 are the first projection matrix, 1024 … 1279
  the second, 1280 … 1343 the third, 1344 … 1359 the fourth; rows 1360 … 1407 are 0.
-/
import proofs.«168319_j55327768707951_2_alg».proof.Proof.KOperandTerms
import Idealize.ShloMosaic.Lib.ValueIdx
import Idealize.ShloMosaic.Lib.Pipeline.Value
import Idealize.ShloMosaic.Lib.KernelVsHost
import Idealize.ShloMosaic.PureOps.Ideal.Laws

noncomputable section

namespace Cert.KernelIdeal.Hand

open Cert.KernelIdeal
open Idealize.ShloMosaic Idealize.ShloMosaic.ValueIdx

/-- The padding value: the integer zero converted is the real zero. -/
theorem padValue_apply (i : S_.Idx) : (sitofp (F := Ideal) .f32 (constantI S_ 32 0#32)) i = (0 : EReal) := by
  show ((((0#32 : BitVec 32).toInt : ℤ) : ℝ) : EReal) = 0
  simp

section Left

variable (M0 M1 M2 M3 : (⟨S8192, .i1⟩ : BufTy).Contents (Elt Ideal))
  (G0 : (⟨S8192x1024, .f32⟩ : BufTy).Contents (Elt Ideal)) (G1 : (⟨S8192x256, .f32⟩ : BufTy).Contents (Elt Ideal))
  (G2 : (⟨S8192x64, .f32⟩ : BufTy).Contents (Elt Ideal)) (G3 : (⟨S8192x16, .f32⟩ : BufTy).Contents (Elt Ideal))

/-! ### A masked block at (r, d): the block's entry where the mask is on at r, else 0 -/

theorem whereK_0_apply (r : Fin 8192) (d : Fin 1024) :
    whereK_0 M0 G0 (ix2 r d) = Scalar.select (M0 (ix1 r)) (G0 (ix2 r d)) (0 : EReal) := by
  unfold whereK_0
  rw [select_apply]
  congr 1
  · refine (broadcastInDim_apply _ _ _ _ (ix2 r (0 : Fin 1)) (fun a => ?_)).trans
      (broadcastInDim_apply _ _ _ _ (ix1 r) (fun a => ?_))
    · match a with
      | ⟨0, _⟩ => rfl
      | ⟨1, _⟩ => rfl
    · match a with
      | ⟨0, _⟩ => rfl
  · exact Idealize.ShloMosaic.Ideal.ofBits_zero_f32

theorem whereK_1_apply (r : Fin 8192) (d : Fin 256) :
    whereK_1 M1 G1 (ix2 r d) = Scalar.select (M1 (ix1 r)) (G1 (ix2 r d)) (0 : EReal) := by
  unfold whereK_1
  rw [select_apply]
  congr 1
  · refine (broadcastInDim_apply _ _ _ _ (ix2 r (0 : Fin 1)) (fun a => ?_)).trans
      (broadcastInDim_apply _ _ _ _ (ix1 r) (fun a => ?_))
    · match a with
      | ⟨0, _⟩ => rfl
      | ⟨1, _⟩ => rfl
    · match a with
      | ⟨0, _⟩ => rfl
  · exact Idealize.ShloMosaic.Ideal.ofBits_zero_f32

theorem whereK_2_apply (r : Fin 8192) (d : Fin 64) :
    whereK_2 M2 G2 (ix2 r d) = Scalar.select (M2 (ix1 r)) (G2 (ix2 r d)) (0 : EReal) := by
  unfold whereK_2
  rw [select_apply]
  congr 1
  · refine (broadcastInDim_apply _ _ _ _ (ix2 r (0 : Fin 1)) (fun a => ?_)).trans
      (broadcastInDim_apply _ _ _ _ (ix1 r) (fun a => ?_))
    · match a with
      | ⟨0, _⟩ => rfl
      | ⟨1, _⟩ => rfl
    · match a with
      | ⟨0, _⟩ => rfl
  · exact Idealize.ShloMosaic.Ideal.ofBits_zero_f32

theorem whereK_3_apply (r : Fin 8192) (d : Fin 16) :
    whereK_3 M3 G3 (ix2 r d) = Scalar.select (M3 (ix1 r)) (G3 (ix2 r d)) (0 : EReal) := by
  unfold whereK_3
  rw [select_apply]
  congr 1
  · refine (broadcastInDim_apply _ _ _ _ (ix2 r (0 : Fin 1)) (fun a => ?_)).trans
      (broadcastInDim_apply _ _ _ _ (ix1 r) (fun a => ?_))
    · match a with
      | ⟨0, _⟩ => rfl
      | ⟨1, _⟩ => rfl
    · match a with
      | ⟨0, _⟩ => rfl
  · exact Idealize.ShloMosaic.Ideal.ofBits_zero_f32

/-! ### The left operand, piece by piece -/

/-- Columns 0 … 1023 of the left operand: bucket 0's masked block. -/
theorem aK_apply_0 (r : Fin 8192) (d : Fin 1024) :
    aK M0 M1 M2 M3 G0 G1 G2 G3 (ix2 r (⟨d.val, by omega⟩ : Fin 1408))
      = Scalar.select (M0 (ix1 r)) (G0 (ix2 r d)) (0 : EReal) := by
  unfold aK
  refine (pad_apply_of_inside _ _ _ _ _ _ _ _ (ix2 r (⟨d.val, by omega⟩ : Fin 1360)) (fun a => ?_)).trans ?_
  · match a with
    | ⟨0, _⟩ => show r.val = 0 + r.val * (0 + 1); omega
    | ⟨1, _⟩ => show d.val = 0 + (d.val) * (0 + 1); omega
  refine (concatenate_apply_piece 1 _ _ _ 0 ?_ S8192x1024 (whereK_0 M0 G0) ?_ ?_ 0 ?_ (ix2 r d)
    (fun b hb => ?_) ?_).trans (whereK_0_apply _ _ r d)
  · exact Nat.lt_of_sub_eq_succ rfl
  · rfl
  · rfl
  · rfl
  · match b with
    | ⟨0, _⟩ => rfl
    | ⟨1, _⟩ => exact absurd rfl hb
  · exact Nat.zero_add _

/-- Columns 1024 … 1279 of the left operand: bucket 1's masked block. -/
theorem aK_apply_1 (r : Fin 8192) (d : Fin 256) :
    aK M0 M1 M2 M3 G0 G1 G2 G3 (ix2 r (⟨1024 + d.val, by omega⟩ : Fin 1408))
      = Scalar.select (M1 (ix1 r)) (G1 (ix2 r d)) (0 : EReal) := by
  unfold aK
  refine (pad_apply_of_inside _ _ _ _ _ _ _ _ (ix2 r (⟨1024 + d.val, by omega⟩ : Fin 1360)) (fun a => ?_)).trans ?_
  · match a with
    | ⟨0, _⟩ => show r.val = 0 + r.val * (0 + 1); omega
    | ⟨1, _⟩ => show 1024 + d.val = 0 + (1024 + d.val) * (0 + 1); omega
  refine (concatenate_apply_piece 1 _ _ _ 1 ?_ S8192x256 (whereK_1 M1 G1) ?_ ?_ 1024 ?_ (ix2 r d)
    (fun b hb => ?_) ?_).trans (whereK_1_apply _ _ r d)
  · exact Nat.lt_of_sub_eq_succ rfl
  · rfl
  · rfl
  · rfl
  · match b with
    | ⟨0, _⟩ => rfl
    | ⟨1, _⟩ => exact absurd rfl hb
  · rfl

/-- Columns 1280 … 1343 of the left operand: bucket 2's masked block. -/
theorem aK_apply_2 (r : Fin 8192) (d : Fin 64) :
    aK M0 M1 M2 M3 G0 G1 G2 G3 (ix2 r (⟨1280 + d.val, by omega⟩ : Fin 1408))
      = Scalar.select (M2 (ix1 r)) (G2 (ix2 r d)) (0 : EReal) := by
  unfold aK
  refine (pad_apply_of_inside _ _ _ _ _ _ _ _ (ix2 r (⟨1280 + d.val, by omega⟩ : Fin 1360)) (fun a => ?_)).trans ?_
  · match a with
    | ⟨0, _⟩ => show r.val = 0 + r.val * (0 + 1); omega
    | ⟨1, _⟩ => show 1280 + d.val = 0 + (1280 + d.val) * (0 + 1); omega
  refine (concatenate_apply_piece 1 _ _ _ 2 ?_ S8192x64 (whereK_2 M2 G2) ?_ ?_ 1280 ?_ (ix2 r d)
    (fun b hb => ?_) ?_).trans (whereK_2_apply _ _ r d)
  · exact Nat.lt_of_sub_eq_succ rfl
  · rfl
  · rfl
  · rfl
  · match b with
    | ⟨0, _⟩ => rfl
    | ⟨1, _⟩ => exact absurd rfl hb
  · rfl

/-- Columns 1344 … 1359 of the left operand: bucket 3's masked block. -/
theorem aK_apply_3 (r : Fin 8192) (d : Fin 16) :
    aK M0 M1 M2 M3 G0 G1 G2 G3 (ix2 r (⟨1344 + d.val, by omega⟩ : Fin 1408))
      = Scalar.select (M3 (ix1 r)) (G3 (ix2 r d)) (0 : EReal) := by
  unfold aK
  refine (pad_apply_of_inside _ _ _ _ _ _ _ _ (ix2 r (⟨1344 + d.val, by omega⟩ : Fin 1360)) (fun a => ?_)).trans ?_
  · match a with
    | ⟨0, _⟩ => show r.val = 0 + r.val * (0 + 1); omega
    | ⟨1, _⟩ => show 1344 + d.val = 0 + (1344 + d.val) * (0 + 1); omega
  refine (concatenate_apply_piece 1 _ _ _ 3 ?_ S8192x16 (whereK_3 M3 G3) ?_ ?_ 1344 ?_ (ix2 r d)
    (fun b hb => ?_) ?_).trans (whereK_3_apply _ _ r d)
  · exact Nat.lt_of_sub_eq_succ rfl
  · rfl
  · rfl
  · rfl
  · match b with
    | ⟨0, _⟩ => rfl
    | ⟨1, _⟩ => exact absurd rfl hb
  · rfl

/-- Columns 1360 … 1407 of the left operand are the padding: 0. -/
theorem aK_apply_pad (r : Fin 8192) (d : Fin 48) :
    aK M0 M1 M2 M3 G0 G1 G2 G3 (ix2 r (⟨1360 + d.val, by omega⟩ : Fin 1408)) = (0 : EReal) := by
  unfold aK
  refine (pad_apply_of_not_inside _ _ _ _ _ _ _ _ (1 : Fin 2) (fun hin => ?_)).trans (padValue_apply _)
  have h3 : (1360 + d.val - 0) / (0 + 1) < 1360 := hin.2.2
  omega

end Left

section Right

variable (x5 : (⟨S1024x1024, .f32⟩ : BufTy).Contents (Elt Ideal)) (x6 : (⟨S256x1024, .f32⟩ : BufTy).Contents (Elt Ideal))
  (x7 : (⟨S64x1024, .f32⟩ : BufTy).Contents (Elt Ideal)) (x8 : (⟨S16x1024, .f32⟩ : BufTy).Contents (Elt Ideal))

/-! ### The right operand, piece by piece -/

/-- Rows 0 … 1023 of the right operand: projection matrix 0. -/
theorem bK_apply_0 (d : Fin 1024) (e : Fin 1024) :
    bK x5 x6 x7 x8 (ix2 (⟨d.val, by omega⟩ : Fin 1408) e) = x5 (ix2 d e) := by
  unfold bK
  refine (pad_apply_of_inside _ _ _ _ _ _ _ _ (ix2 (⟨d.val, by omega⟩ : Fin 1360) e) (fun a => ?_)).trans ?_
  · match a with
    | ⟨0, _⟩ => show d.val = 0 + (d.val) * (0 + 1); omega
    | ⟨1, _⟩ => show e.val = 0 + e.val * (0 + 1); omega
  refine concatenate_apply_piece 0 _ _ _ 0 ?_ S1024x1024 x5 ?_ ?_ 0 ?_ (ix2 d e) (fun b hb => ?_) ?_
  · exact Nat.lt_of_sub_eq_succ rfl
  · rfl
  · rfl
  · rfl
  · match b with
    | ⟨0, _⟩ => exact absurd rfl hb
    | ⟨1, _⟩ => rfl
  · exact Nat.zero_add _

/-- Rows 1024 … 1279 of the right operand: projection matrix 1. -/
theorem bK_apply_1 (d : Fin 256) (e : Fin 1024) :
    bK x5 x6 x7 x8 (ix2 (⟨1024 + d.val, by omega⟩ : Fin 1408) e) = x6 (ix2 d e) := by
  unfold bK
  refine (pad_apply_of_inside _ _ _ _ _ _ _ _ (ix2 (⟨1024 + d.val, by omega⟩ : Fin 1360) e) (fun a => ?_)).trans ?_
  · match a with
    | ⟨0, _⟩ => show 1024 + d.val = 0 + (1024 + d.val) * (0 + 1); omega
    | ⟨1, _⟩ => show e.val = 0 + e.val * (0 + 1); omega
  refine concatenate_apply_piece 0 _ _ _ 1 ?_ S256x1024 x6 ?_ ?_ 1024 ?_ (ix2 d e) (fun b hb => ?_) ?_
  · exact Nat.lt_of_sub_eq_succ rfl
  · rfl
  · rfl
  · rfl
  · match b with
    | ⟨0, _⟩ => exact absurd rfl hb
    | ⟨1, _⟩ => rfl
  · rfl

/-- Rows 1280 … 1343 of the right operand: projection matrix 2. -/
theorem bK_apply_2 (d : Fin 64) (e : Fin 1024) :
    bK x5 x6 x7 x8 (ix2 (⟨1280 + d.val, by omega⟩ : Fin 1408) e) = x7 (ix2 d e) := by
  unfold bK
  refine (pad_apply_of_inside _ _ _ _ _ _ _ _ (ix2 (⟨1280 + d.val, by omega⟩ : Fin 1360) e) (fun a => ?_)).trans ?_
  · match a with
    | ⟨0, _⟩ => show 1280 + d.val = 0 + (1280 + d.val) * (0 + 1); omega
    | ⟨1, _⟩ => show e.val = 0 + e.val * (0 + 1); omega
  refine concatenate_apply_piece 0 _ _ _ 2 ?_ S64x1024 x7 ?_ ?_ 1280 ?_ (ix2 d e) (fun b hb => ?_) ?_
  · exact Nat.lt_of_sub_eq_succ rfl
  · rfl
  · rfl
  · rfl
  · match b with
    | ⟨0, _⟩ => exact absurd rfl hb
    | ⟨1, _⟩ => rfl
  · rfl

/-- Rows 1344 … 1359 of the right operand: projection matrix 3. -/
theorem bK_apply_3 (d : Fin 16) (e : Fin 1024) :
    bK x5 x6 x7 x8 (ix2 (⟨1344 + d.val, by omega⟩ : Fin 1408) e) = x8 (ix2 d e) := by
  unfold bK
  refine (pad_apply_of_inside _ _ _ _ _ _ _ _ (ix2 (⟨1344 + d.val, by omega⟩ : Fin 1360) e) (fun a => ?_)).trans ?_
  · match a with
    | ⟨0, _⟩ => show 1344 + d.val = 0 + (1344 + d.val) * (0 + 1); omega
    | ⟨1, _⟩ => show e.val = 0 + e.val * (0 + 1); omega
  refine concatenate_apply_piece 0 _ _ _ 3 ?_ S16x1024 x8 ?_ ?_ 1344 ?_ (ix2 d e) (fun b hb => ?_) ?_
  · exact Nat.lt_of_sub_eq_succ rfl
  · rfl
  · rfl
  · rfl
  · match b with
    | ⟨0, _⟩ => exact absurd rfl hb
    | ⟨1, _⟩ => rfl
  · rfl

/-- Rows 1360 … 1407 of the right operand are the padding: 0. -/
theorem bK_apply_pad (d : Fin 48) (e : Fin 1024) :
    bK x5 x6 x7 x8 (ix2 (⟨1360 + d.val, by omega⟩ : Fin 1408) e) = (0 : EReal) := by
  unfold bK
  refine (pad_apply_of_not_inside _ _ _ _ _ _ _ _ (0 : Fin 2) (fun hin => ?_)).trans (padValue_apply _)
  have h3 : (1360 + d.val - 0) / (0 + 1) < 1360 := hin.2.2
  omega

end Right

end Cert.KernelIdeal.Hand

end
-- ==== Proof.LibSplitDot.lean ====
/-
  Splitting a contraction of length 1408 = 1024 + 256 + 64 + 16 + 48 into its five consecutive pieces, and a
  masked dot product on the extended reals.

  * `sum_fin_split`: a sum over `Fin n` with `a + b = n` is the sum over the first `a` indices plus the sum over
    the last `b`.
  * `sum_split_1408`: a sum over `Fin 1408` is the sum of the five consecutive pieces of lengths 1024, 256, 64,
    16, 48 (starting at 0, 1024, 1280, 1344, 1360), in any additive commutative monoid.
  * `masked_dot`: a one-bit mask that multiplies every term of a dot product can be taken out of the sum:
    if the bit is 1 both sides are the dot product; otherwise every term is `0 * p d = 0` and the sum is 0.
  * `split_masked_dot`: a dot product of length 1408 whose left factor is, piece by piece, four masked vectors
    followed by 48 zeros, and whose right factor is four vectors followed by 48 zeros, is the sum of the four
    masked dot products.  No finiteness hypothesis: only `0 * x = 0` and the commutative-monoid laws of the
    extended reals are used.
-/
import Idealize.ShloMosaic.Lib.ValueIdx

noncomputable section

open scoped BigOperators

namespace Idealize.ShloMosaic.SplitDot

open Idealize.ShloMosaic

/-- A sum over `Fin n`, `n = a + b`, is the sum over the first `a` indices plus the sum over the last `b`. -/
theorem sum_fin_split {M : Type*} [AddCommMonoid M] (a b n : Nat) (h : a + b = n) (f : Fin n → M) :
    ∑ k, f k
      = (∑ d : Fin a, f ⟨d.val, by have := d.isLt; omega⟩)
        + ∑ d : Fin b, f ⟨a + d.val, by have := d.isLt; omega⟩ := by
  subst h
  rw [Fin.sum_univ_add]
  rfl

/-- 1408 = 1024 + 256 + 64 + 16 + 48: a sum over `Fin 1408` by its five consecutive pieces. -/
theorem sum_split_1408 {M : Type*} [AddCommMonoid M] (f : Fin 1408 → M) :
    ∑ k, f k
      = (∑ d : Fin 1024, f ⟨d.val, by have := d.isLt; omega⟩)
        + (∑ d : Fin 256, f ⟨1024 + d.val, by have := d.isLt; omega⟩)
        + (∑ d : Fin 64, f ⟨1280 + d.val, by have := d.isLt; omega⟩)
        + (∑ d : Fin 16, f ⟨1344 + d.val, by have := d.isLt; omega⟩)
        + (∑ d : Fin 48, f ⟨1360 + d.val, by have := d.isLt; omega⟩) := by
  have h4 := sum_fin_split 1360 48 1408 rfl f
  have h3 := sum_fin_split 1344 16 1360 rfl (fun d : Fin 1360 => f ⟨d.val, by have := d.isLt; omega⟩)
  have h2 := sum_fin_split 1280 64 1344 rfl (fun d : Fin 1344 => f ⟨d.val, by have := d.isLt; omega⟩)
  have h1 := sum_fin_split 1024 256 1280 rfl (fun d : Fin 1280 => f ⟨d.val, by have := d.isLt; omega⟩)
  rw [h4, h3, h2, h1]

/-- A one-bit mask on every left factor of a dot product is the mask on the dot product. -/
theorem masked_dot {n : Nat} (m : BitVec 1) (g p : Fin n → EReal) :
    ∑ d, Scalar.select m (g d) 0 * p d = Scalar.select m (∑ d, g d * p d) 0 := by
  by_cases h : m = 1
  · simp only [Scalar.select, if_pos h]
  · simp only [Scalar.select, if_neg h, zero_mul, Finset.sum_const_zero]

/-- The dot product of length 1408 of (four masked vectors, then 48 zeros) with (four vectors, then 48 zeros)
    is the sum of the four masked dot products. -/
theorem split_masked_dot (A B : Fin 1408 → EReal) (m0 m1 m2 m3 : BitVec 1)
    (g0 p0 : Fin 1024 → EReal) (g1 p1 : Fin 256 → EReal) (g2 p2 : Fin 64 → EReal) (g3 p3 : Fin 16 → EReal)
    (hA0 : ∀ d : Fin 1024, A ⟨d.val, by have := d.isLt; omega⟩ = Scalar.select m0 (g0 d) 0)
    (hA1 : ∀ d : Fin 256, A ⟨1024 + d.val, by have := d.isLt; omega⟩ = Scalar.select m1 (g1 d) 0)
    (hA2 : ∀ d : Fin 64, A ⟨1280 + d.val, by have := d.isLt; omega⟩ = Scalar.select m2 (g2 d) 0)
    (hA3 : ∀ d : Fin 16, A ⟨1344 + d.val, by have := d.isLt; omega⟩ = Scalar.select m3 (g3 d) 0)
    (hAz : ∀ d : Fin 48, A ⟨1360 + d.val, by have := d.isLt; omega⟩ = 0)
    (hB0 : ∀ d : Fin 1024, B ⟨d.val, by have := d.isLt; omega⟩ = p0 d)
    (hB1 : ∀ d : Fin 256, B ⟨1024 + d.val, by have := d.isLt; omega⟩ = p1 d)
    (hB2 : ∀ d : Fin 64, B ⟨1280 + d.val, by have := d.isLt; omega⟩ = p2 d)
    (hB3 : ∀ d : Fin 16, B ⟨1344 + d.val, by have := d.isLt; omega⟩ = p3 d)
    (hBz : ∀ d : Fin 48, B ⟨1360 + d.val, by have := d.isLt; omega⟩ = 0) :
    ∑ k : Fin 1408, A k * B k
      = ((((0 : EReal) + Scalar.select m0 (∑ d, g0 d * p0 d) 0) + Scalar.select m1 (∑ d, g1 d * p1 d) 0)
          + Scalar.select m2 (∑ d, g2 d * p2 d) 0) + Scalar.select m3 (∑ d, g3 d * p3 d) 0 := by
  rw [sum_split_1408 (fun k => A k * B k)]
  simp only [hA0, hA1, hA2, hA3, hAz, hB0, hB1, hB2, hB3, hBz]
  rw [masked_dot m0 g0 p0, masked_dot m1 g1 p1, masked_dot m2 g2 p2, masked_dot m3 g3 p3]
  simp only [zero_mul, Finset.sum_const_zero, add_zero, zero_add]

end Idealize.ShloMosaic.SplitDot

end
-- ==== Proof.Bridge.lean ====
/-
  The two idealized programs compute the same array. On the extended reals, at row r and column e:
  the kernel program's region gives  (sum over k < 1408 of a (r, k) * b (k, e)) * 32,  where row r of the left
  operand a is the four gathered table rows of token r laid side by side, each zeroed unless the token falls in
  its bucket, followed by 48 zeros, and the right operand b is the four projection matrices stacked, followed
  by 48 zero rows; the reference gives  (0 + w_0 + w_1 + w_2 + w_3) * 32  with  w_i  the product of the gathered row
  with projection i if the token falls in bucket i, and 0 otherwise. The sum over the 1408 columns splits into the
  four pieces and the zero tail; in each piece a zeroed row contributes zero products; only that zero times
  anything is zero and that addition is commutative and associative are used, so no finiteness is needed.
  The masks and the gathered rows are the same terms of the token array and the tables in both programs.
-/
import proofs.«168319_j55327768707951_2_alg».proof.Proof.KValue
import proofs.«168319_j55327768707951_2_alg».proof.Proof.KOperandRead
import proofs.«168319_j55327768707951_2_alg».proof.Proof.RefSide
import proofs.«168319_j55327768707951_2_alg».proof.Proof.LibSplitDot

set_option maxRecDepth 16384
set_option maxHeartbeats 1000000

noncomputable section

open scoped BigOperators

namespace Cert.Proof.Bridge

open Idealize.ShloMosaic Idealize.ShloMosaic.TcCoe Idealize.ShloMosaic.ValueIdx Idealize.ShloMosaic.SplitDot
open Idealize.SL Idealize.SL.Sem
open Cert.KernelIdeal Cert.KernelIdeal.Gen Cert.KernelIdeal.Hand

/-- The reference's array before its last reshape, at (r, e), over the kernel side's names for the masks and the
    gathered rows (they are the reference's own stages, by unfolding). -/
theorem reference_at (x0 : (⟨S4x2048, .i32⟩ : BufTy).Contents (Elt Ideal)) (x1 : (⟨S20000x1024, .f32⟩ : BufTy).Contents (Elt Ideal))
    (x2 : (⟨S20000x256, .f32⟩ : BufTy).Contents (Elt Ideal)) (x3 : (⟨S160000x64, .f32⟩ : BufTy).Contents (Elt Ideal))
    (x4 : (⟨S67735x16, .f32⟩ : BufTy).Contents (Elt Ideal)) (x5 : (⟨S1024x1024, .f32⟩ : BufTy).Contents (Elt Ideal))
    (x6 : (⟨S256x1024, .f32⟩ : BufTy).Contents (Elt Ideal)) (x7 : (⟨S64x1024, .f32⟩ : BufTy).Contents (Elt Ideal))
    (x8 : (⟨S16x1024, .f32⟩ : BufTy).Contents (Elt Ideal)) (r : Fin 8192) (e : Fin 1024) :
    Cert.ReferenceIdeal.Read.val_main_v79 (F := Ideal) x0 x1 x2 x3 x4 x5 x6 x7 x8 (ix2 r e)
      = (((((0 : EReal)
          + Scalar.select (maskK_0 (F := Ideal) x0 (ix1 r)) (∑ k : Fin 1024, gathK_0 (F := Ideal) x0 x1 (ix2 r k) * x5 (ix2 k e)) (0 : EReal))
          + Scalar.select (maskK_1 (F := Ideal) x0 (ix1 r)) (∑ k : Fin 256, gathK_1 (F := Ideal) x0 x2 (ix2 r k) * x6 (ix2 k e)) (0 : EReal))
          + Scalar.select (maskK_2 (F := Ideal) x0 (ix1 r)) (∑ k : Fin 64, gathK_2 (F := Ideal) x0 x3 (ix2 r k) * x7 (ix2 k e)) (0 : EReal))
          + Scalar.select (maskK_3 (F := Ideal) x0 (ix1 r)) (∑ k : Fin 16, gathK_3 (F := Ideal) x0 x4 (ix2 r k) * x8 (ix2 k e)) (0 : EReal))
        * Ideal.ofBits .f32 0x42000000#32 :=
  Cert.ReferenceIdeal.RefValue.val_main_v79_ix2 x0 x1 x2 x3 x4 x5 x6 x7 x8 r e

/-- With the two operand arrays given as the terms of the arguments, the scaled product is the reference's array
    before its last reshape: at (r, e) the sum over the 1408 columns splits into the four buckets' pieces and the
    zero tail, and in each piece the masked row gives the masked product. -/
theorem product_eq_of (A : S8192x1408.Idx → EReal) (B : S1408x1024.Idx → EReal)
    (x0 : (⟨S4x2048, .i32⟩ : BufTy).Contents (Elt Ideal)) (x1 : (⟨S20000x1024, .f32⟩ : BufTy).Contents (Elt Ideal))
    (x2 : (⟨S20000x256, .f32⟩ : BufTy).Contents (Elt Ideal)) (x3 : (⟨S160000x64, .f32⟩ : BufTy).Contents (Elt Ideal))
    (x4 : (⟨S67735x16, .f32⟩ : BufTy).Contents (Elt Ideal)) (x5 : (⟨S1024x1024, .f32⟩ : BufTy).Contents (Elt Ideal))
    (x6 : (⟨S256x1024, .f32⟩ : BufTy).Contents (Elt Ideal)) (x7 : (⟨S64x1024, .f32⟩ : BufTy).Contents (Elt Ideal))
    (x8 : (⟨S16x1024, .f32⟩ : BufTy).Contents (Elt Ideal))
    (hA : A = aK (maskK_0 (F := Ideal) x0) (maskK_1 (F := Ideal) x0) (maskK_2 (F := Ideal) x0) (maskK_3 (F := Ideal) x0) (gathK_0 (F := Ideal) x0 x1) (gathK_1 (F := Ideal) x0 x2) (gathK_2 (F := Ideal) x0 x3) (gathK_3 (F := Ideal) x0 x4))
    (hB : B = bK (F := Ideal) x5 x6 x7 x8) :
    scaledProduct A B = Cert.ReferenceIdeal.Read.val_main_v79 (F := Ideal) x0 x1 x2 x3 x4 x5 x6 x7 x8 := by
  subst hA hB
  funext i
  obtain ⟨r, e, rfl⟩ : ∃ (r : Fin 8192) (e : Fin 1024), i = ix2 r e := ⟨i 0, i 1, eq_ix2 i⟩
  refine Eq.trans ?_ (reference_at x0 x1 x2 x3 x4 x5 x6 x7 x8 r e).symm
  show (∑ k : Fin 1408, aK (maskK_0 (F := Ideal) x0) (maskK_1 (F := Ideal) x0) (maskK_2 (F := Ideal) x0) (maskK_3 (F := Ideal) x0) (gathK_0 (F := Ideal) x0 x1) (gathK_1 (F := Ideal) x0 x2) (gathK_2 (F := Ideal) x0 x3) (gathK_3 (F := Ideal) x0 x4) (ix2 r k) * bK (F := Ideal) x5 x6 x7 x8 (ix2 k e)) * Ideal.ofBits .f32 0x42000000#32 = _
  refine congrArg (· * Ideal.ofBits .f32 0x42000000#32) ?_
  exact split_masked_dot
    (fun k => aK (maskK_0 (F := Ideal) x0) (maskK_1 (F := Ideal) x0) (maskK_2 (F := Ideal) x0) (maskK_3 (F := Ideal) x0) (gathK_0 (F := Ideal) x0 x1) (gathK_1 (F := Ideal) x0 x2) (gathK_2 (F := Ideal) x0 x3) (gathK_3 (F := Ideal) x0 x4) (ix2 r k))
    (fun k => bK (F := Ideal) x5 x6 x7 x8 (ix2 k e))
    (maskK_0 (F := Ideal) x0 (ix1 r)) (maskK_1 (F := Ideal) x0 (ix1 r)) (maskK_2 (F := Ideal) x0 (ix1 r)) (maskK_3 (F := Ideal) x0 (ix1 r))
    (fun d => gathK_0 (F := Ideal) x0 x1 (ix2 r d)) (fun d => x5 (ix2 d e))
    (fun d => gathK_1 (F := Ideal) x0 x2 (ix2 r d)) (fun d => x6 (ix2 d e))
    (fun d => gathK_2 (F := Ideal) x0 x3 (ix2 r d)) (fun d => x7 (ix2 d e))
    (fun d => gathK_3 (F := Ideal) x0 x4 (ix2 r d)) (fun d => x8 (ix2 d e))
    (fun d => aK_apply_0 _ _ _ _ _ _ _ _ r d) (fun d => aK_apply_1 _ _ _ _ _ _ _ _ r d)
    (fun d => aK_apply_2 _ _ _ _ _ _ _ _ r d) (fun d => aK_apply_3 _ _ _ _ _ _ _ _ r d)
    (fun d => aK_apply_pad _ _ _ _ _ _ _ _ r d)
    (fun d => bK_apply_0 x5 x6 x7 x8 d e) (fun d => bK_apply_1 x5 x6 x7 x8 d e)
    (fun d => bK_apply_2 x5 x6 x7 x8 d e) (fun d => bK_apply_3 x5 x6 x7 x8 d e)
    (fun d => bK_apply_pad x5 x6 x7 x8 d e)

end Cert.Proof.Bridge

end
-- ==== Proof.lean ====
/-
  The certificate of a bucketed embedding projection. A token t in bucket i (of four consecutive token ranges)
  is embedded as row (t - lo_i) of table i, of width d_i = 1024, 256, 64 or 16, projected by the d_i x 1024
  matrix P_i and scaled by 32. The reference adds, over the four buckets, the product (table row) * P_i kept only
  where the token is in bucket i. The kernel program lays the four masked table rows side by side as one row of
  1360 numbers (padded with zeros to 1408), stacks P_0 … P_3 (padded with zero rows), and forms ONE matrix product
  in a region of eight row blocks, then scales. On the extended reals the two are equal index by index: a sum over the
  1408 columns is the sum of its four pieces and a zero tail, and a zeroed row gives zero products. No finiteness of
  the inputs is used.

  Frames: the kernel program (as printed, and idealized) runs its host lines, its region and the final reshape to the
  end without fault and writes no argument; the reference is a straight line of host operations. The ideal pass
  rewrote nothing, so the idealization claim has no conjunct.
-/
import proofs.«168319_j55327768707951_2_alg».proof.Defs
import proofs.«168319_j55327768707951_2_alg».proof.Proof.Gen.Kernel
import proofs.«168319_j55327768707951_2_alg».proof.Proof.Gen.KernelIdeal
import proofs.«168319_j55327768707951_2_alg».proof.Proof.Gen.ReferenceIdeal
import proofs.«168319_j55327768707951_2_alg».proof.Proof.Gen.Pre_finite_inputs
import proofs.«168319_j55327768707951_2_alg».proof.Proof.Gen.ReferenceIdeal.Run
import proofs.«168319_j55327768707951_2_alg».proof.Proof.Gen.ReferenceIdeal.Read
import proofs.«168319_j55327768707951_2_alg».proof.Proof.KFrame
import proofs.«168319_j55327768707951_2_alg».proof.Proof.KFrameW
import proofs.«168319_j55327768707951_2_alg».proof.Proof.KValue
import proofs.«168319_j55327768707951_2_alg».proof.Proof.KOperandEntry
import proofs.«168319_j55327768707951_2_alg».proof.Proof.RefSide
import proofs.«168319_j55327768707951_2_alg».proof.Proof.Bridge
import Idealize.ShloMosaic.Adequacy
import Idealize.ShloMosaic.Init

set_option maxRecDepth 16384
set_option maxHeartbeats 1000000

noncomputable section

namespace Cert.Proof

open Idealize.ShloMosaic Idealize.ShloMosaic.TcCoe Idealize.SL.Sem

/-- The kernel program as printed runs to the end and leaves its arguments unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The kernel program's output array, as the region leaves it, is the reference's array before its last reshape,
    as functions of the kernel program's argument arrays. -/
theorem product_eq (m : (ℓ : Loc Cert.KernelIdeal.nD Cert.KernelIdeal.τ Cert.KernelIdeal.sig) → Buf (Elt Ideal) ℓ) (c : Dev Cert.KernelIdeal.nD) :
    Cert.KernelIdeal.Hand.scaledProduct (Cert.KernelIdeal.Hand.opA m c) (Cert.KernelIdeal.Hand.opB m c)
      = Cert.ReferenceIdeal.Read.val_main_v79 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) :=
  Cert.Proof.Bridge.product_eq_of _ _ _ _ _ _ _ _ _ _ _ (Cert.KernelIdeal.Hand.entry_v71 m c) (Cert.KernelIdeal.Hand.entry_v72 m c)

/-- From memories agreeing on the nine arguments the two idealized programs end with equal results: both results are
    the same reshape of equal 8192 x 1024 arrays. -/
theorem algebraic : Cert.algebraic_KernelIdeal_ReferenceIdeal := by
  intro m ρ m' ρ' _ hagree
  refine ⟨fun c => shapeCast Cert.KernelIdeal.S4x2048x1024 (Cert.KernelIdeal.Hand.scaledProduct (Cert.KernelIdeal.Hand.opA m c) (Cert.KernelIdeal.Hand.opB m c))
      Cert.KernelIdeal.Gen.shapeCasts_S8192x1024_S4x2048x1024, Cert.KernelIdeal.Hand.run m ρ, ?_⟩
  refine (θ_run Cert.ReferenceIdeal.defs _ _).mono (fun _ h c => ⟨(h c).1.trans ?_, (h c).2⟩) (Cert.ReferenceIdeal.Value.run (F := Ideal) m' ρ')
  show Cert.ReferenceIdeal.Value.res_main_v80 m' c
      = shapeCast Cert.KernelIdeal.S4x2048x1024 (Cert.KernelIdeal.Hand.scaledProduct (Cert.KernelIdeal.Hand.opA m c) (Cert.KernelIdeal.Hand.opB m c))
          Cert.KernelIdeal.Gen.shapeCasts_S8192x1024_S4x2048x1024
  rw [product_eq m c, Cert.ReferenceIdeal.RefValue.res_main_v80_eq_shapeCast, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
